-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v64)) (v1 : (c : Dev Cert.KernelIdeal.nD) → Buf (Elt Ideal) ((c.tc : Thread Cert.KernelIdeal.nD Cert.KernelIdeal.τ).loc Cert.KernelIdeal.main_v35_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_v35_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_v41) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S25000x128 : Shape := ⟨2, ![25000, 128]⟩
abbrev S100000x1 : Shape := ⟨2, ![100000, 1]⟩
abbrev S25000x1 : Shape := ⟨2, ![25000, 1]⟩
abbrev S128x256 : Shape := ⟨2, ![128, 256]⟩
abbrev S128 : Shape := ⟨1, ![128]⟩
abbrev S128x128 : Shape := ⟨2, ![128, 128]⟩
abbrev S_ : Shape := ⟨0, ![]⟩
abbrev S1600000 : Shape := ⟨1, ![1600000]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S25000x128 : S_.BroadcastsInDim S25000x128 (![] : Fin 0 → Fin S25000x128.rank)
  reducesTo_S25000x128_S_d0_1 : S25000x128.ReducesTo [0, 1] S_
  bcast_S_S100000x1 : S_.BroadcastsInDim S100000x1 (![] : Fin 0 → Fin S100000x1.rank)
  reducesTo_S100000x1_S_d0_1 : S100000x1.ReducesTo [0, 1] S_
  bcast_S_S25000x1 : S_.BroadcastsInDim S25000x1 (![] : Fin 0 → Fin S25000x1.rank)
  reducesTo_S25000x1_S_d0_1 : S25000x1.ReducesTo [0, 1] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  reducesTo_S_S_d : S_.ReducesTo [] S_

variable [Facts]

def fn_part3 {F : FTy → Type} [FloatOps F] (main_arg11 : FVec F S128 .f32) (main_arg12 : FVec F S_ .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S_ .f32 := Host.absf main_arg12
  let main_cst_22 : FVec F S_ .f32 := constant S_ .f32 0x7F800000#32
  let main_v60 : IVec S_ 1 := cmpf .olt main_v59 main_cst_22
  let main_c_23 : IVec S_ 1 := constantI S_ 1 1#1
  let main_v61 : IVec S_ 1 := (fun x v => Host.reduce IntOp.andi x v reducesTo_S_S_d h_S_) main_v60 main_c_23
  let main_v62 : IVec S_ 1 := andi main_v58 main_v61
  main_v62

def fn_part2 {F : FTy → Type} [FloatOps F] (main_arg7 : FVec F S128 .f32) (main_arg8 : FVec F S128x128 .f32) (main_arg9 : FVec F S128 .f32) (main_arg10 : FVec F S128x128 .f32) (main_arg11 : FVec F S128 .f32) (main_arg12 : FVec F S_ .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg10
  let main_cst_18 : FVec F S_ .f32 := constant S_ .f32 0x7F800000#32
  let main_v50 : FVec F S128x128 .f32 := broadcastInDim S128x128 ![] bcast_S_S128x128 main_cst_18
  fn_part3 (F := F) main_arg11 main_arg12 main_v48 main_v49 main_v50

def fn_part1 {F : FTy → Type} [FloatOps F] (main_arg4 : FVec F S25000x1 .f32) (main_arg5 : FVec F S25000x1 .f32) (main_arg6 : FVec F S128x256 .f32) (main_arg7 : FVec F S128 .f32) (main_arg8 : FVec F S128x128 .f32) (main_arg9 : FVec F S128 .f32) (main_arg10 : FVec F S128x128 .f32) (main_arg11 : FVec F S128 .f32) (main_arg12 : FVec F S_ .f32) (main_v13 : IVec S_ 1) (main_v16 : IVec S100000x1 1) : IVec S_ 1 :=
  let main_c_5 : IVec S_ 1 := constantI S_ 1 1#1
  let main_v17 : IVec S_ 1 := (fun x v => Host.reduce IntOp.andi x v reducesTo_S100000x1_S_d0_1 h_S_) main_v16 main_c_5
  let main_v18 : IVec S_ 1 := andi main_v13 main_v17
  let main_v19 : FVec F S25000x1 .f32 := Host.absf main_arg4
  let main_cst_6 : FVec F S_ .f32 := constant S_ .f32 0x7F800000#32
  let main_v20 : FVec F S25000x1 .f32 := broadcastInDim S25000x1 ![] bcast_S_S25000x1 main_cst_6
  let main_v21 : IVec S25000x1 1 := cmpf .olt main_v19 main_v20
  let main_c_7 : IVec S_ 1 := constantI S_ 1 1#1
  let main_v22 : IVec S_ 1 := (fun x v => Host.reduce IntOp.andi x v reducesTo_S25000x1_S_d0_1 h_S_) main_v21 main_c_7
  let main_v23 : IVec S_ 1 := andi main_v18 main_v22
  let main_v24 : FVec F S25000x1 .f32 := Host.absf main_arg5
  let main_cst_8 : FVec F S_ .f32 := constant S_ .f32 0x7F800000#32
  let main_v25 : FVec F S25000x1 .f32 := broadcastInDim S25000x1 ![] bcast_S_S25000x1 main_cst_8
  let main_v26 : IVec S25000x1 1 := cmpf .olt main_v24 main_v25
  let main_c_9 : IVec S_ 1 := constantI S_ 1 1#1
  let main_v27 : IVec S_ 1 := (fun x v => Host.reduce IntOp.andi x v reducesTo_S25000x1_S_d0_1 h_S_) main_v26 main_c_9
  let main_v28 : IVec S_ 1 := andi main_v23 main_v27
  let main_v29 : FVec F S128x256 .f32 := Host.absf main_arg6
  let main_cst_10 : FVec F S_ .f32 := constant S_ .f32 0x7F800000#32
  let main_v30 : FVec F S128x256 .f32 := broadcastInDim S128x256 ![] bcast_S_S128x256 main_cst_10
  let main_v31 : IVec S128x256 1 := cmpf .olt main_v29 main_v30
  let main_c_11 : IVec S_ 1 := constantI S_ 1 1#1
  let main_v32 : IVec S_ 1 := (fun x v => Host.reduce IntOp.andi x v reducesTo_S128x256_S_d0_1 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S100000x256 .f32) (main_arg1 : FVec F S25000x128 .f32) (main_arg2 : FVec F S100000x1 .f32) (main_arg3 : FVec F S100000x1 .f32) (main_arg4 : FVec F S25000x1 .f32) (main_arg5 : FVec F S25000x1 .f32) (main_arg6 : FVec F S128x256 .f32) (main_arg7 : FVec F S128 .f32) (main_arg8 : FVec F S128x128 .f32) (main_arg9 : FVec F S128 .f32) (main_arg10 : FVec F S128x128 .f32) (main_arg11 : FVec F S128 .f32) (main_arg12 : FVec F S_ .f32) (main_arg13 : IVec S1600000 32) (main_arg14 : IVec S1600000 32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S25000x128 .f32 := Host.absf main_arg1
  let main_cst_0 : FVec F S_ .f32 := constant S_ .f32 0x7F800000#32
  let main_v5 : FVec F S25000x128 .f32 := broadcastInDim S25000x128 ![] bcast_S_S25000x128 main_cst_0
  let main_v6 : IVec S25000x128 1 := cmpf .olt main_v4 main_v5
  let main_c_1 : IVec S_ 1 := constantI S_ 1 1#1
  let main_v7 : IVec S_ 1 := (fun x v => Host.reduce IntOp.andi x v reducesTo_S25000x128_S_d0_1 h_S_) main_v6 main_c_1
  let main_v8 : IVec S_ 1 := andi main_v3 main_v7
  let main_v9 : FVec F S100000x1 .f32 := Host.absf main_arg2
  let main_cst_2 : FVec F S_ .f32 := constant S_ .f32 0x7F800000#32
  let main_v10 : FVec F S100000x1 .f32 := broadcastInDim S100000x1 ![] bcast_S_S100000x1 main_cst_2
  let main_v11 : IVec S100000x1 1 := cmpf .olt main_v9 main_v10
  let main_c_3 : IVec S_ 1 := constantI S_ 1 1#1
  let main_v12 : IVec S_ 1 := (fun x v => Host.reduce IntOp.andi x v reducesTo_S100000x1_S_d0_1 h_S_) main_v11 main_c_3
  let main_v13 : IVec S_ 1 := andi main_v8 main_v12
  let main_v14 : FVec F S100000x1 .f32 := Host.absf main_arg3
  let main_cst_4 : FVec F S_ .f32 := constant S_ .f32 0x7F800000#32
  let main_v15 : FVec F S100000x1 .f32 := broadcastInDim S100000x1 ![] bcast_S_S100000x1 main_cst_4
  let main_v16 : IVec S100000x1 1 := cmpf .olt main_v14 main_v15
  fn_part1 (F := F) main_arg4 main_arg5 main_arg6 main_arg7 main_arg8 main_arg9 main_arg10 main_arg11 main_arg12 main_v13 main_v16
-- ==== Kernel.lean ====
abbrev S100000x256 : Shape := ⟨2, ![100000, 256]⟩
abbrev S25000x128 : Shape := ⟨2, ![25000, 128]⟩
abbrev S100000x1 : Shape := ⟨2, ![100000, 1]⟩
abbrev S25000x1 : Shape := ⟨2, ![25000, 1]⟩
abbrev S128x256 : Shape := ⟨2, ![128, 256]⟩
abbrev S128 : Shape := ⟨1, ![128]⟩
abbrev S128x128 : Shape := ⟨2, ![128, 128]⟩
abbrev S_ : Shape := ⟨0, ![]⟩
abbrev S1600000 : Shape := ⟨1, ![1600000]⟩
abbrev S256x128 : Shape := ⟨2, ![256, 128]⟩
abbrev S1x128 : Shape := ⟨2, ![1, 128]⟩
abbrev S100000x128 : Shape := ⟨2, ![100000, 128]⟩
abbrev S5000x256 : Shape := ⟨2, ![5000, 256]⟩
abbrev S5000x128 : Shape := ⟨2, ![5000, 128]⟩
abbrev S1600000x1 : Shape := ⟨2, ![1600000, 1]⟩
abbrev S1600000x128 : Shape := ⟨2, ![1600000, 128]⟩
abbrev S1x1 : Shape := ⟨2, ![1, 1]⟩
abbrev S10000x128 : Shape := ⟨2, ![10000, 128]⟩

abbrev nBuf : Space → Nat
  | .hbm => 95
  | .vmem => 22
  | .smem => 0
  | _ => 0

abbrev bufTy : (tb : Table) → Fin (tcTables nBuf tb) → BufTy
  | .hbm, ⟨0, _⟩ => ⟨S100000x256, .f32⟩
  | .hbm, ⟨1, _⟩ => ⟨S25000x128, .f32⟩
  | .hbm, ⟨2, _⟩ => ⟨S100000x1, .f32⟩
  | .hbm, ⟨3, _⟩ => ⟨S100000x1, .f32⟩
  | .hbm, ⟨4, _⟩ => ⟨S25000x1, .f32⟩
  | .hbm, ⟨5, _⟩ => ⟨S25000x1, .f32⟩
  | .hbm, ⟨6, _⟩ => ⟨S128x256, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S_, .f32⟩
  | .hbm, ⟨13, _⟩ => ⟨S1600000, .i32⟩
  | .hbm, ⟨14, _⟩ => ⟨S1600000, .i32⟩
  | .hbm, ⟨15, _⟩ => ⟨S256x128, .f32⟩
  | .hbm, ⟨16, _⟩ => ⟨S128x128, .f32⟩
  | .hbm, ⟨17, _⟩ => ⟨S128x128, .f32⟩
  | .hbm, ⟨18, _⟩ => ⟨S1x128, .f32⟩
  | .hbm, ⟨19, _⟩ => ⟨S1x128, .f32⟩
  | .hbm, ⟨20, _⟩ => ⟨S100000x128, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000x1, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000x1, .f32⟩
  | .hbm, ⟨39, _⟩ => ⟨S1600000x1, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x128, .f32⟩
  | .hbm, ⟨49, _⟩ => ⟨S1600000x128, .f32⟩
  | .hbm, ⟨50, _⟩ => ⟨S1600000x128, .f32⟩
  | .hbm, ⟨51, _⟩ => ⟨S_, .f32⟩
  | .hbm, ⟨52, _⟩ => ⟨S25000x128, .f32⟩
  | .hbm, ⟨53, _⟩ => ⟨S1600000x1, .i32⟩
  | .hbm, ⟨54, _⟩ => ⟨S25000x128, .f32⟩
  | .hbm, ⟨55, _⟩ => ⟨S1x1, .f32⟩
  | .hbm, ⟨56, _⟩ => ⟨S1x128, .f32⟩
  | .hbm, ⟨57, _⟩ => ⟨S25000x128, .f32⟩
  | .hbm, ⟨58, _⟩ => ⟨S25000x128, .f32⟩
  | .hbm, ⟨59, _⟩ => ⟨S_, .i32⟩
  | .hbm, ⟨60, _⟩ => ⟨S1600000, .i32⟩
  | .hbm, ⟨61, _⟩ => ⟨S1600000, .i1⟩
  | .hbm, ⟨62, _⟩ => ⟨S_, .i32⟩
  | .hbm, ⟨63, _⟩ => ⟨S1600000, .i32⟩
  | .hbm, ⟨64, _⟩ => ⟨S1600000, .i32⟩
  | .hbm, ⟨65, _⟩ => ⟨S1600000, .i32⟩
  | .hbm, ⟨66, _⟩ => ⟨S1600000x1, .i32⟩
  | .hbm, ⟨67, _⟩ => ⟨S1600000x1, .f32⟩
  | .hbm, ⟨68, _⟩ => ⟨S_, .i32⟩
  | .hbm, ⟨69, _⟩ => ⟨S1600000, .i32⟩
  | .hbm, ⟨70, _⟩ => ⟨S1600000, .i1⟩
  | .hbm, ⟨71, _⟩ => ⟨S_, .i32⟩
  | .hbm, ⟨72, _⟩ => ⟨S1600000, .i32⟩
  | .hbm, ⟨73, _⟩ => ⟨S1600000, .i32⟩
  | .hbm, ⟨74, _⟩ => ⟨S1600000, .i32⟩
  | .hbm, ⟨75, _⟩ => ⟨S1600000x1, .i32⟩
  | .hbm, ⟨76, _⟩ => ⟨S1600000x1, .f32⟩
  | .hbm, ⟨77, _⟩ => ⟨S1600000x1, .f32⟩
  | .hbm, ⟨78, _⟩ => ⟨S_, .i32⟩
  | .hbm, ⟨79, _⟩ => ⟨S1600000, .i32⟩
  | .hbm, ⟨80, _⟩ => ⟨S1600000, .i1⟩
  | .hbm, ⟨81, _⟩ => ⟨S_, .i32⟩
  | .hbm, ⟨82, _⟩ => ⟨S1600000, .i32⟩
  | .hbm, ⟨83, _⟩ => ⟨S1600000, .i32⟩
  | .hbm, ⟨84, _⟩ => ⟨S1600000, .i32⟩
  | .hbm, ⟨85, _⟩ => ⟨S1600000x1, .i32⟩
  | .hbm, ⟨86, _⟩ => ⟨S1600000x128, .f32⟩
  | .hbm, ⟨87, _⟩ => ⟨S1600000x128, .f32⟩
  | .hbm, ⟨88, _⟩ => ⟨S1600000x128, .f32⟩
  | .hbm, ⟨89, _⟩ => ⟨S_, .f32⟩
  | .hbm, ⟨90, _⟩ => ⟨S100000x128, .f32⟩
  | .hbm, ⟨91, _⟩ => ⟨S1600000x1, .i32⟩
  | .hbm, ⟨92, _⟩ => ⟨S100000x128, .f32⟩
  | .hbm, ⟨93, _⟩ => ⟨S1x1, .f32⟩
  | .hbm, ⟨94, _⟩ => ⟨S100000x128, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S1x1, .f32⟩
  | .local _ .vmem, ⟨11, _⟩ => ⟨S128x128, .f32⟩
  | .local _ .vmem, ⟨12, _⟩ => ⟨S1x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S10000x128, .f32⟩
  | .local _ .vmem, ⟨18, _⟩ => ⟨S10000x128, .f32⟩
  | .local _ .vmem, ⟨19, _⟩ => ⟨S1x1, .f32⟩
  | .local _ .vmem, ⟨20, _⟩ => ⟨S10000x128, .f32⟩
  | .local _ .vmem, ⟨21, _⟩ => ⟨S10000x128, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_c : Ref sig .tc := ⟨.hbm, 21, rfl⟩
abbrev main_v6 : Ref sig .tc := ⟨.hbm, 22, rfl⟩
abbrev main_v7 : Ref sig .tc := ⟨.hbm, 23, rfl⟩
abbrev main_c_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_c_1 : Ref sig .tc := ⟨.hbm, 30, rfl⟩
abbrev main_v13 : Ref sig .tc := ⟨.hbm, 31, rfl⟩
abbrev main_v14 : Ref sig .tc := ⟨.hbm, 32, rfl⟩
abbrev main_c_2 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_c_3 : Ref sig .tc := ⟨.hbm, 40, rfl⟩
abbrev main_v21 : Ref sig .tc := ⟨.hbm, 41, rfl⟩
abbrev main_v22 : Ref sig .tc := ⟨.hbm, 42, rfl⟩
abbrev main_c_4 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35_0 : Ref sig .tc := ⟨.hbm, 57, rfl⟩
abbrev main_v35_1 : Ref sig .tc := ⟨.hbm, 58, rfl⟩
abbrev main_c_5 : Ref sig .tc := ⟨.hbm, 59, rfl⟩
abbrev main_v36 : Ref sig .tc := ⟨.hbm, 60, rfl⟩
abbrev main_v37 : Ref sig .tc := ⟨.hbm, 61, rfl⟩
abbrev main_c_6 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_c_7 : Ref sig .tc := ⟨.hbm, 68, rfl⟩
abbrev main_v43 : Ref sig .tc := ⟨.hbm, 69, rfl⟩
abbrev main_v44 : Ref sig .tc := ⟨.hbm, 70, rfl⟩
abbrev main_c_8 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_c_9 : Ref sig .tc := ⟨.hbm, 78, rfl⟩
abbrev main_v51 : Ref sig .tc := ⟨.hbm, 79, rfl⟩
abbrev main_v52 : Ref sig .tc := ⟨.hbm, 80, rfl⟩
abbrev main_c_10 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_11 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg2_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem4_1 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem2_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  transposes_S128x256_S256x128_1_0 : S128x256.Transposes [1, 0] S256x128
  transposes_S128x128_S128x128_1_0 : S128x128.Transposes [1, 0] S128x128
  shapeCasts_S128_S1x128 : S128.ShapeCasts S1x128
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S5000x128_S5000x128_0_0 : ∀ a, (![0, 0] : Fin 2 → Nat) a + S5000x128.size a ≤ S5000x128.size a
  h_S5000x128 : 0 < S5000x128.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S25000x128 : S_.BroadcastsInDim S25000x128 (![] : Fin 0 → Fin S25000x128.rank)
  shapeCasts_S_S1x1 : S_.ShapeCasts S1x1
  shapeCasts_S5000x128_S5000x128 : S5000x128.ShapeCasts S5000x128
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  bcast_S_S100000x128 : S_.BroadcastsInDim S100000x128 (![] : Fin 0 → Fin S100000x128.rank)
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  dot_S5000x256_S256x128_S5000x128_1_0_0_1_n_n_wf : DotDims.WF S5000x256 S256x128 S5000x128 [1] [0] [0] [1] [] []
  dot_S5000x128_S128x128_S5000x128_1_0_0_1_n_n_wf : DotDims.WF S5000x128 S128x128 S5000x128 [1] [0] [0] [1] [] []
  gather_S100000x1_S1600000x1_S1600000x1_1_0_n_n_0_1_11_wf : GatherDims.WF S100000x1 S1600000x1 S1600000x1 [1] [0] [] [0] [] 1 ![1, 1]
  gather_S25000x1_S1600000x1_S1600000x1_1_0_n_n_0_1_11_wf : GatherDims.WF S25000x1 S1600000x1 S1600000x1 [1] [0] [] [0] [] 1 ![1, 1]
  gather_S100000x128_S1600000x1_S1600000x128_1_0_n_n_0_1_1128_wf : GatherDims.WF S100000x128 S1600000x1 S1600000x128 [1] [0] [] [0] [] 1 ![1, 128]
  scatter_S25000x128_S1600000x1_S1600000x128_1_0_0_1_wf : ScatterDims.WF S25000x128 S1600000x1 S1600000x128 [1] [0] [0] 1
  gather_S25000x128_S1600000x1_S1600000x128_1_0_n_n_0_1_1128_wf : GatherDims.WF S25000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S25000x128.size a
  hwx1_0 : ∀ i : grid1.Coords, EltTy.bits .f32 = 32 ∨ (Rect.block (s := S25000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1.size a ≤ S1x1.size a
  hwx1_1 : ∀ i : grid1.Coords, EltTy.bits .f32 = 32 ∨ (Rect.block (s := S1x1) S1x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S25000x128.size a
  hwx1_4 : ∀ i : grid1.Coords, EltTy.bits .f32 = 32 ∨ (Rect.block (s := S25000x128) S5000x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S25000x128.size a
  hwx1_5 : ∀ i : grid1.Coords, EltTy.bits .f32 = 32 ∨ (Rect.block (s := S25000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x1.size a ≤ S1x1.size a
  hwx2_1 : ∀ i : grid2.Coords, EltTy.bits .f32 = 32 ∨ (Rect.block (s := S1x1) S1x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S100000x128.size a
  hwx2_2 : ∀ i : grid2.Coords, EltTy.bits .f32 = 32 ∨ (Rect.block (s := S100000x128) S10000x128.size (cc2_transform_2 i) (hinb2_2 i)).WholeWords (EltTy.packing .f32)

variable [Facts₀]

def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x1_S1600000x1_S1600000x1_1_0_n_n_0_1_11 : GatherDims S100000x1 S1600000x1 S1600000x1 where
  offsetDims := [1]
  collapsedSliceDims := [0]
  operandBatchingDims := []
  startIndicesBatchingDims := []
  startIndexMap := [0]
  indexVectorDim := 1
  sliceSizes := ![1, 1]
  wf := gather_S100000x1_S1600000x1_S1600000x1_1_0_n_n_0_1_11_wf
def gather_S25000x1_S1600000x1_S1600000x1_1_0_n_n_0_1_11 : GatherDims S25000x1 S1600000x1 S1600000x1 where
  offsetDims := [1]
  collapsedSliceDims := [0]
  operandBatchingDims := []
  startIndicesBatchingDims := []
  startIndexMap := [0]
  indexVectorDim := 1
  sliceSizes := ![1, 1]
  wf := gather_S25000x1_S1600000x1_S1600000x1_1_0_n_n_0_1_11_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S25000x128_S1600000x1_S1600000x128_1_0_0_1 : ScatterDims S25000x128 S1600000x1 S1600000x128 where
  updateWindowDims := [1]
  insertedWindowDims := [0]
  scatterDimsToOperandDims := [0]
  indexVectorDim := 1
  wf := scatter_S25000x128_S1600000x1_S1600000x128_1_0_0_1_wf
def gather_S25000x128_S1600000x1_S1600000x128_1_0_n_n_0_1_1128 : GatherDims S25000x128 S1600000x1 S1600000x128 where
  offsetDims := [1]
  collapsedSliceDims := [0]
  operandBatchingDims := []
  startIndicesBatchingDims := []
  startIndexMap := [0]
  indexVectorDim := 1
  sliceSizes := ![1, 128]
  wf := gather_S25000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v32) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S1x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v34) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v35_0) S5000x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v35_1) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v62) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v63) S1x1.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v64) S10000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x256 : Shape := ⟨2, ![100000, 256]⟩
abbrev S25000x128 : Shape := ⟨2, ![25000, 128]⟩
abbrev S100000x1 : Shape := ⟨2, ![100000, 1]⟩
abbrev S25000x1 : Shape := ⟨2, ![25000, 1]⟩
abbrev S128x256 : Shape := ⟨2, ![128, 256]⟩
abbrev S128 : Shape := ⟨1, ![128]⟩
abbrev S128x128 : Shape := ⟨2, ![128, 128]⟩
abbrev S_ : Shape := ⟨0, ![]⟩
abbrev S1600000 : Shape := ⟨1, ![1600000]⟩
abbrev S256x128 : Shape := ⟨2, ![256, 128]⟩
abbrev S100000x128 : Shape := ⟨2, ![100000, 128]⟩
abbrev S1x128 : Shape := ⟨2, ![1, 128]⟩
abbrev S1600000x1 : Shape := ⟨2, ![1600000, 1]⟩
abbrev S1600000x128 : Shape := ⟨2, ![1600000, 128]⟩

abbrev nBuf : Space → Nat
  | .hbm => 110
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S25000x128, .f32⟩
  | .hbm, ⟨2, _⟩ => ⟨S100000x1, .f32⟩
  | .hbm, ⟨3, _⟩ => ⟨S100000x1, .f32⟩
  | .hbm, ⟨4, _⟩ => ⟨S25000x1, .f32⟩
  | .hbm, ⟨5, _⟩ => ⟨S25000x1, .f32⟩
  | .hbm, ⟨6, _⟩ => ⟨S128x256, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S_, .f32⟩
  | .hbm, ⟨13, _⟩ => ⟨S1600000, .i32⟩
  | .hbm, ⟨14, _⟩ => ⟨S1600000, .i32⟩
  | .hbm, ⟨15, _⟩ => ⟨S256x128, .f32⟩
  | .hbm, ⟨16, _⟩ => ⟨S100000x128, .f32⟩
  | .hbm, ⟨17, _⟩ => ⟨S1x128, .f32⟩
  | .hbm, ⟨18, _⟩ => ⟨S100000x128, .f32⟩
  | .hbm, ⟨19, _⟩ => ⟨S100000x128, .f32⟩
  | .hbm, ⟨20, _⟩ => ⟨S128x128, .f32⟩
  | .hbm, ⟨21, _⟩ => ⟨S100000x128, .f32⟩
  | .hbm, ⟨22, _⟩ => ⟨S1x128, .f32⟩
  | .hbm, ⟨23, _⟩ => ⟨S100000x128, .f32⟩
  | .hbm, ⟨24, _⟩ => ⟨S100000x128, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x1, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000x1, .f32⟩
  | .hbm, ⟨43, _⟩ => ⟨S1600000x1, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x128, .f32⟩
  | .hbm, ⟨53, _⟩ => ⟨S1600000x128, .f32⟩
  | .hbm, ⟨54, _⟩ => ⟨S1600000x128, .f32⟩
  | .hbm, ⟨55, _⟩ => ⟨S_, .f32⟩
  | .hbm, ⟨56, _⟩ => ⟨S25000x128, .f32⟩
  | .hbm, ⟨57, _⟩ => ⟨S1600000x1, .i32⟩
  | .hbm, ⟨58, _⟩ => ⟨S25000x128, .f32⟩
  | .hbm, ⟨59, _⟩ => ⟨S_, .f32⟩
  | .hbm, ⟨60, _⟩ => ⟨S25000x128, .f32⟩
  | .hbm, ⟨61, _⟩ => ⟨S25000x128, .i1⟩
  | .hbm, ⟨62, _⟩ => ⟨S25000x128, .f32⟩
  | .hbm, ⟨63, _⟩ => ⟨S25000x128, .f32⟩
  | .hbm, ⟨64, _⟩ => ⟨S25000x128, .f32⟩
  | .hbm, ⟨65, _⟩ => ⟨S128x128, .f32⟩
  | .hbm, ⟨66, _⟩ => ⟨S25000x128, .f32⟩
  | .hbm, ⟨67, _⟩ => ⟨S1x128, .f32⟩
  | .hbm, ⟨68, _⟩ => ⟨S25000x128, .f32⟩
  | .hbm, ⟨69, _⟩ => ⟨S25000x128, .f32⟩
  | .hbm, ⟨70, _⟩ => ⟨S_, .i32⟩
  | .hbm, ⟨71, _⟩ => ⟨S1600000, .i32⟩
  | .hbm, ⟨72, _⟩ => ⟨S1600000, .i1⟩
  | .hbm, ⟨73, _⟩ => ⟨S_, .i32⟩
  | .hbm, ⟨74, _⟩ => ⟨S1600000, .i32⟩
  | .hbm, ⟨75, _⟩ => ⟨S1600000, .i32⟩
  | .hbm, ⟨76, _⟩ => ⟨S1600000, .i32⟩
  | .hbm, ⟨77, _⟩ => ⟨S1600000x1, .i32⟩
  | .hbm, ⟨78, _⟩ => ⟨S1600000x1, .f32⟩
  | .hbm, ⟨79, _⟩ => ⟨S_, .i32⟩
  | .hbm, ⟨80, _⟩ => ⟨S1600000, .i32⟩
  | .hbm, ⟨81, _⟩ => ⟨S1600000, .i1⟩
  | .hbm, ⟨82, _⟩ => ⟨S_, .i32⟩
  | .hbm, ⟨83, _⟩ => ⟨S1600000, .i32⟩
  | .hbm, ⟨84, _⟩ => ⟨S1600000, .i32⟩
  | .hbm, ⟨85, _⟩ => ⟨S1600000, .i32⟩
  | .hbm, ⟨86, _⟩ => ⟨S1600000x1, .i32⟩
  | .hbm, ⟨87, _⟩ => ⟨S1600000x1, .f32⟩
  | .hbm, ⟨88, _⟩ => ⟨S1600000x1, .f32⟩
  | .hbm, ⟨89, _⟩ => ⟨S_, .i32⟩
  | .hbm, ⟨90, _⟩ => ⟨S1600000, .i32⟩
  | .hbm, ⟨91, _⟩ => ⟨S1600000, .i1⟩
  | .hbm, ⟨92, _⟩ => ⟨S_, .i32⟩
  | .hbm, ⟨93, _⟩ => ⟨S1600000, .i32⟩
  | .hbm, ⟨94, _⟩ => ⟨S1600000, .i32⟩
  | .hbm, ⟨95, _⟩ => ⟨S1600000, .i32⟩
  | .hbm, ⟨96, _⟩ => ⟨S1600000x1, .i32⟩
  | .hbm, ⟨97, _⟩ => ⟨S1600000x128, .f32⟩
  | .hbm, ⟨98, _⟩ => ⟨S1600000x128, .f32⟩
  | .hbm, ⟨99, _⟩ => ⟨S1600000x128, .f32⟩
  | .hbm, ⟨100, _⟩ => ⟨S_, .f32⟩
  | .hbm, ⟨101, _⟩ => ⟨S100000x128, .f32⟩
  | .hbm, ⟨102, _⟩ => ⟨S1600000x1, .i32⟩
  | .hbm, ⟨103, _⟩ => ⟨S100000x128, .f32⟩
  | .hbm, ⟨104, _⟩ => ⟨S_, .f32⟩
  | .hbm, ⟨105, _⟩ => ⟨S100000x128, .f32⟩
  | .hbm, ⟨106, _⟩ => ⟨S100000x128, .i1⟩
  | .hbm, ⟨107, _⟩ => ⟨S100000x128, .f32⟩
  | .hbm, ⟨108, _⟩ => ⟨S100000x128, .f32⟩
  | .hbm, ⟨109, _⟩ => ⟨S100000x128, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_c : Ref sig .tc := ⟨.hbm, 25, rfl⟩
abbrev main_v10 : Ref sig .tc := ⟨.hbm, 26, rfl⟩
abbrev main_v11 : Ref sig .tc := ⟨.hbm, 27, rfl⟩
abbrev main_c_0 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_c_1 : Ref sig .tc := ⟨.hbm, 34, rfl⟩
abbrev main_v17 : Ref sig .tc := ⟨.hbm, 35, rfl⟩
abbrev main_v18 : Ref sig .tc := ⟨.hbm, 36, rfl⟩
abbrev main_c_2 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_c_3 : Ref sig .tc := ⟨.hbm, 44, rfl⟩
abbrev main_v25 : Ref sig .tc := ⟨.hbm, 45, rfl⟩
abbrev main_v26 : Ref sig .tc := ⟨.hbm, 46, rfl⟩
abbrev main_c_4 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_5 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_c_6 : Ref sig .tc := ⟨.hbm, 70, rfl⟩
abbrev main_v47 : Ref sig .tc := ⟨.hbm, 71, rfl⟩
abbrev main_v48 : Ref sig .tc := ⟨.hbm, 72, rfl⟩
abbrev main_c_7 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_c_8 : Ref sig .tc := ⟨.hbm, 79, rfl⟩
abbrev main_v54 : Ref sig .tc := ⟨.hbm, 80, rfl⟩
abbrev main_v55 : Ref sig .tc := ⟨.hbm, 81, rfl⟩
abbrev main_c_9 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_c_10 : Ref sig .tc := ⟨.hbm, 89, rfl⟩
abbrev main_v62 : Ref sig .tc := ⟨.hbm, 90, rfl⟩
abbrev main_v63 : Ref sig .tc := ⟨.hbm, 91, rfl⟩
abbrev main_c_11 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_cst_12 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_cst_13 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩

abbrev nD : Nat := 1
abbrev τ : Topo := Topo.v7x

variable {F : FTy → Type} [FloatOps F]

class Facts₀ : Prop where
  transposes_S128x256_S256x128_1_0 : S128x256.Transposes [1, 0] S256x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  transposes_S128x128_S128x128_1_0 : S128x128.Transposes [1, 0] S128x128
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S25000x128 : S_.BroadcastsInDim S25000x128 (![] : Fin 0 → Fin S25000x128.rank)
  bcast_S1x128_S25000x128_0_1 : S1x128.BroadcastsInDim S25000x128 (![0, 1] : Fin 2 → Fin S25000x128.rank)
  bcast_S_S100000x128 : S_.BroadcastsInDim S100000x128 (![] : Fin 0 → Fin S100000x128.rank)
  dot_S100000x256_S256x128_S100000x128_1_0_0_1_n_n_wf : DotDims.WF S100000x256 S256x128 S100000x128 [1] [0] [0] [1] [] []
  dot_S100000x128_S128x128_S100000x128_1_0_0_1_n_n_wf : DotDims.WF S100000x128 S128x128 S100000x128 [1] [0] [0] [1] [] []
  gather_S100000x1_S1600000x1_S1600000x1_1_0_n_n_0_1_11_wf : GatherDims.WF S100000x1 S1600000x1 S1600000x1 [1] [0] [] [0] [] 1 ![1, 1]
  gather_S25000x1_S1600000x1_S1600000x1_1_0_n_n_0_1_11_wf : GatherDims.WF S25000x1 S1600000x1 S1600000x1 [1] [0] [] [0] [] 1 ![1, 1]
  gather_S100000x128_S1600000x1_S1600000x128_1_0_n_n_0_1_1128_wf : GatherDims.WF S100000x128 S1600000x1 S1600000x128 [1] [0] [] [0] [] 1 ![1, 128]
  scatter_S25000x128_S1600000x1_S1600000x128_1_0_0_1_wf : ScatterDims.WF S25000x128 S1600000x1 S1600000x128 [1] [0] [0] 1
  dot_S25000x128_S128x128_S25000x128_1_0_0_1_n_n_wf : DotDims.WF S25000x128 S128x128 S25000x128 [1] [0] [0] [1] [] []
  gather_S25000x128_S1600000x1_S1600000x128_1_0_n_n_0_1_1128_wf : GatherDims.WF S25000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x1_S1600000x1_S1600000x1_1_0_n_n_0_1_11 : GatherDims S100000x1 S1600000x1 S1600000x1 where
  offsetDims := [1]
  collapsedSliceDims := [0]
  operandBatchingDims := []
  startIndicesBatchingDims := []
  startIndexMap := [0]
  indexVectorDim := 1
  sliceSizes := ![1, 1]
  wf := gather_S100000x1_S1600000x1_S1600000x1_1_0_n_n_0_1_11_wf
def gather_S25000x1_S1600000x1_S1600000x1_1_0_n_n_0_1_11 : GatherDims S25000x1 S1600000x1 S1600000x1 where
  offsetDims := [1]
  collapsedSliceDims := [0]
  operandBatchingDims := []
  startIndicesBatchingDims := []
  startIndexMap := [0]
  indexVectorDim := 1
  sliceSizes := ![1, 1]
  wf := gather_S25000x1_S1600000x1_S1600000x1_1_0_n_n_0_1_11_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S25000x128_S1600000x1_S1600000x128_1_0_0_1 : ScatterDims S25000x128 S1600000x1 S1600000x128 where
  updateWindowDims := [1]
  insertedWindowDims := [0]
  scatterDimsToOperandDims := [0]
  indexVectorDim := 1
  wf := scatter_S25000x128_S1600000x1_S1600000x128_1_0_0_1_wf
def dot_S25000x128_S128x128_S25000x128_1_0_0_1_n_n : DotDims S25000x128 S128x128 S25000x128 where
  lhsContracting := [1]
  rhsContracting := [0]
  lhsNonContracting := [0]
  rhsNonContracting := [1]
  lhsBatch := []
  rhsBatch := []
  wf := dot_S25000x128_S128x128_S25000x128_1_0_0_1_n_n_wf
def gather_S25000x128_S1600000x1_S1600000x128_1_0_n_n_0_1_1128 : GatherDims S25000x128 S1600000x1 S1600000x128 where
  offsetDims := [1]
  collapsedSliceDims := [0]
  operandBatchingDims := []
  startIndicesBatchingDims := []
  startIndexMap := [0]
  indexVectorDim := 1
  sliceSizes := ![1, 128]
  wf := gather_S25000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.Spec.lean ====
/-
  The two programs as compositions of four kinds of stage, on whole arrays at the exact instance.

  A hypergraph convolution: node features are projected by two stacked linear layers, every incidence pair
  (node, hyperedge) sends the node's row, weighted, to its hyperedge, where the rows are summed (`toHedges`); the sums go
  through a leaky rectifier with one learnt slope (`leaky25`), are projected again (`linear1`), and travel back along the
  same incidence pairs to be summed at the nodes (`toNodes`) and rectified (`leaky100`).

  The stages are stated on the host's operations, with the weights already transposed and each bias already laid
  as one row, the cut at which the tiled program hands its arrays from the host to the vector unit and back.
-/
import proofs.«172786_j57234734187132_1_alg».proof.ReferenceIdeal
import proofs.«172786_j57234734187132_1_alg».proof.Proof.Gen.ReferenceIdeal
import Idealize.ShloMosaic.PureOps.Ideal

noncomputable section

namespace Cert.Hyper

open Idealize.ShloMosaic Cert.ReferenceIdeal Cert.ReferenceIdeal.Facts₀

/-- A float array of shape `S` at the exact instance. -/
abbrev Arr (S : Shape) := FVec Ideal S .f32
/-- The list of one end of every incidence pair. -/
abbrev Ends := IVec S1600000 32

/-- Two stacked linear layers: `(X · W₁ + b₁) · W₂ + b₂`, each bias one row repeated down the rows. -/
def linear2 (a0 : Arr S100000x256) (w1 : Arr S256x128) (b1 : Arr S1x128) (w2 : Arr S128x128) (b2 : Arr S1x128) : Arr S100000x128 :=
  addf (Host.dotGeneral (F := Ideal) dot_S100000x128_S128x128_S100000x128_1_0_0_1_n_n none (addf (Host.dotGeneral (F := Ideal) dot_S100000x256_S256x128_S100000x128_1_0_0_1_n_n none a0 w1) (broadcastInDim S100000x128 ![0, 1] bcast_S1x128_S100000x128_0_1 b1)) w2) (broadcastInDim S100000x128 ![0, 1] bcast_S1x128_S100000x128_0_1 b2)

/-- One linear layer on the hyperedges: `E · W + b`. -/
def linear1 (e : Arr S25000x128) (w : Arr S128x128) (b : Arr S1x128) : Arr S25000x128 :=
  addf (Host.dotGeneral (F := Ideal) dot_S25000x128_S128x128_S25000x128_1_0_0_1_n_n none e w) (broadcastInDim S25000x128 ![0, 1] bcast_S1x128_S25000x128_0_1 b)

/-- A bias vector laid as one row. -/
def row (b : Arr S128) : Arr S1x128 := broadcastInDim S1x128 ![1] bcast_S128_S1x128_1 b

/-- The leaky rectifier on the hyperedge features: `h` where `h ≥ 0`, `a · h` elsewhere. -/
def leaky25 (a12 : Arr S_) (HE : Arr S25000x128) : Arr S25000x128 :=
  select (cmpf .oge HE (broadcastInDim S25000x128 ![] bcast_S_S25000x128 (constant (F := Ideal) S_ .f32 0x00000000#32))) HE (mulf (broadcastInDim S25000x128 ![] bcast_S_S25000x128 a12) HE)

/-- The leaky rectifier on the node features. -/
def leaky100 (a12 : Arr S_) (HN : Arr S100000x128) : Arr S100000x128 :=
  select (cmpf .oge HN (broadcastInDim S100000x128 ![] bcast_S_S100000x128 (constant (F := Ideal) S_ .f32 0x00000000#32))) HN (mulf (broadcastInDim S100000x128 ![] bcast_S_S100000x128 a12) HN)

/-- Node rows to hyperedges: pair `e` sends row `src e` of `WH`, scaled by (node weight at `src e`) / (hyperedge
    normaliser at `dst e`), to hyperedge `dst e`; each hyperedge holds the sum of what it was sent. -/
def toHedges (WH : Arr S100000x128) (a2 : Arr S100000x1) (a5 : Arr S25000x1) (a13 a14 : Ends) : Arr S25000x128 :=
  (Host.scatterAdd (F := Ideal) scatter_S25000x128_S1600000x1_S1600000x128_1_0_0_1 (broadcastInDim S25000x128 ![] bcast_S_S25000x128 (constant (F := Ideal) S_ .f32 0x00000000#32)) (broadcastInDim S1600000x1 ![0] bcast_S1600000_S1600000x1_0 a14) (mulf (broadcastInDim S1600000x128 ![0, 1] bcast_S1600000x1_S1600000x128_0_1 (Host.divf (F := Ideal) (Host.gather gather_S100000x1_S1600000x1_S1600000x1_1_0_n_n_0_1_11 a2 (broadcastInDim S1600000x1 ![0] bcast_S1600000_S1600000x1_0 (select (cmpi .slt a13 (broadcastInDim S1600000 ![] bcast_S_S1600000 (constantI S_ 32 0#32))) (addi a13 (broadcastInDim S1600000 ![] bcast_S_S1600000 (constantI S_ 32 100000#32))) a13))) (Host.gather gather_S25000x1_S1600000x1_S1600000x1_1_0_n_n_0_1_11 a5 (broadcastInDim S1600000x1 ![0] bcast_S1600000_S1600000x1_0 (select (cmpi .slt a14 (broadcastInDim S1600000 ![] bcast_S_S1600000 (constantI S_ 32 0#32))) (addi a14 (broadcastInDim S1600000 ![] bcast_S_S1600000 (constantI S_ 32 25000#32))) a14))))) (Host.gather gather_S100000x128_S1600000x1_S1600000x128_1_0_n_n_0_1_1128 WH (broadcastInDim S1600000x1 ![0] bcast_S1600000_S1600000x1_0 (select (cmpi .slt a13 (broadcastInDim S1600000 ![] bcast_S_S1600000 (constantI S_ 32 0#32))) (addi a13 (broadcastInDim S1600000 ![] bcast_S_S1600000 (constantI S_ 32 100000#32))) a13)))))

/-- Hyperedge rows back to nodes: pair `e` sends row `dst e` of `WH2`, scaled by (hyperedge weight at `dst e`) /
    (node normaliser at `src e`), to node `src e`; each node holds the sum of what it was sent. -/
def toNodes (WH2 : Arr S25000x128) (a4 : Arr S25000x1) (a3 : Arr S100000x1) (a13 a14 : Ends) : Arr S100000x128 :=
  (Host.scatterAdd (F := Ideal) scatter_S100000x128_S1600000x1_S1600000x128_1_0_0_1 (broadcastInDim S100000x128 ![] bcast_S_S100000x128 (constant (F := Ideal) S_ .f32 0x00000000#32)) (broadcastInDim S1600000x1 ![0] bcast_S1600000_S1600000x1_0 a13) (mulf (broadcastInDim S1600000x128 ![0, 1] bcast_S1600000x1_S1600000x128_0_1 (Host.divf (F := Ideal) (Host.gather gather_S25000x1_S1600000x1_S1600000x1_1_0_n_n_0_1_11 a4 (broadcastInDim S1600000x1 ![0] bcast_S1600000_S1600000x1_0 (select (cmpi .slt a14 (broadcastInDim S1600000 ![] bcast_S_S1600000 (constantI S_ 32 0#32))) (addi a14 (broadcastInDim S1600000 ![] bcast_S_S1600000 (constantI S_ 32 25000#32))) a14))) (Host.gather gather_S100000x1_S1600000x1_S1600000x1_1_0_n_n_0_1_11 a3 (broadcastInDim S1600000x1 ![0] bcast_S1600000_S1600000x1_0 (select (cmpi .slt a13 (broadcastInDim S1600000 ![] bcast_S_S1600000 (constantI S_ 32 0#32))) (addi a13 (broadcastInDim S1600000 ![] bcast_S_S1600000 (constantI S_ 32 100000#32))) a13))))) (Host.gather gather_S25000x128_S1600000x1_S1600000x128_1_0_n_n_0_1_1128 WH2 (broadcastInDim S1600000x1 ![0] bcast_S1600000_S1600000x1_0 (select (cmpi .slt a14 (broadcastInDim S1600000 ![] bcast_S_S1600000 (constantI S_ 32 0#32))) (addi a14 (broadcastInDim S1600000 ![] bcast_S_S1600000 (constantI S_ 32 25000#32))) a14)))))

/-- The hyperedge features the convolution returns. -/
def hedgeOut (a0 : Arr S100000x256) (a6 : Arr S128x256) (a7 : Arr S128) (a8 : Arr S128x128) (a9 : Arr S128) (a2 : Arr S100000x1)
    (a5 : Arr S25000x1) (a12 : Arr S_) (a13 a14 : Ends) : Arr S25000x128 :=
  leaky25 a12 (toHedges (linear2 a0 (transpose S256x128 [1, 0] a6 transposes_S128x256_S256x128_1_0) (row a7)
    (transpose S128x128 [1, 0] a8 transposes_S128x128_S128x128_1_0) (row a9)) a2 a5 a13 a14)

/-- The node features the convolution returns. -/
def nodeOut (EF : Arr S25000x128) (a10 : Arr S128x128) (a11 : Arr S128) (a4 : Arr S25000x1) (a3 : Arr S100000x1) (a12 : Arr S_)
    (a13 a14 : Ends) : Arr S100000x128 :=
  leaky100 a12 (toNodes (linear1 EF (transpose S128x128 [1, 0] a10 transposes_S128x128_S128x128_1_0) (row a11)) a4 a3 a13 a14)

end Cert.Hyper

end
-- ==== Proof.Boundaries.lean ====
/-
  What each of the three tiled regions finds in its arrays when it is entered, and what the run leaves at the end.

  Between the regions the host transposes weights, lays biases as rows, and carries rows along the incidence pairs;
  every array a region reads is therefore a fixed function of the launch memory and of the earlier regions' results.
-/
import proofs.«172786_j57234734187132_1_alg».proof.Proof.Gen.KernelIdeal.Frame
import proofs.«172786_j57234734187132_1_alg».proof.Proof.Spec
import Idealize.ShloMosaic.Lib.StableHlo.Run
import Idealize.ShloMosaic.PureOps.Ideal

noncomputable section

namespace Cert.Hyper.Boundaries

open Idealize.ShloMosaic Idealize.ShloMosaic.TcCoe
open Cert.KernelIdeal Cert.KernelIdeal.Gen

variable (m : (ℓ : Loc nD τ sig) → Buf (Elt Ideal) ℓ) (ρ : Dev nD → PrngReg) (c : Dev nD)

/-! ## The first region's entry: the launch memory after the first host stretch -/

/-- The node features reach the first region as launched. -/
theorem entry0_x : V1 m ρ c main_arg0 = m ((c.tc : Thread nD τ).loc main_arg0) := by
  show StableHlo.after hostOps0 (W0 m ρ c) (Proc.devRef .tc main_arg0) = _
  dsimp only [hostOps0]
  after_results

/-- The first layer's weights reach the first region transposed. -/
theorem entry0_w1 : V1 m ρ c main_v0
    = transpose S256x128 [1, 0] (m ((c.tc : Thread nD τ).loc main_arg6)) transposes_S128x256_S256x128_1_0 := by
  show StableHlo.after hostOps0 (W0 m ρ c) (Proc.devRef .tc main_v0) = _
  dsimp only [hostOps0]
  after_results

/-- The first layer's bias reaches the first region laid as one row. -/
theorem entry0_b1 : V1 m ρ c main_v3
    = shapeCast S1x128 (m ((c.tc : Thread nD τ).loc main_arg7)) shapeCasts_S128_S1x128 := by
  show StableHlo.after hostOps0 (W0 m ρ c) (Proc.devRef .tc main_v3) = _
  dsimp only [hostOps0]
  after_results
  rfl

/-- The second layer's weights reach the first region transposed. -/
theorem entry0_w2 : V1 m ρ c main_v1
    = transpose S128x128 [1, 0] (m ((c.tc : Thread nD τ).loc main_arg8)) transposes_S128x128_S128x128_1_0 := by
  show StableHlo.after hostOps0 (W0 m ρ c) (Proc.devRef .tc main_v1) = _
  dsimp only [hostOps0]
  after_results

/-- The second layer's bias reaches the first region laid as one row. -/
theorem entry0_b2 : V1 m ρ c main_v4
    = shapeCast S1x128 (m ((c.tc : Thread nD τ).loc main_arg9)) shapeCasts_S128_S1x128 := by
  show StableHlo.after hostOps0 (W0 m ρ c) (Proc.devRef .tc main_v4) = _
  dsimp only [hostOps0]
  after_results
  rfl

/-! ## The whole run, with the two result arrays named -/

/-- The second region's first result is still in place at the end: the last region and the host stretch before it
    write other arrays. -/
theorem W6_v35_0 : W6 m ρ c (Proc.devRef .tc main_v35_0) = (dat1 (V3 m ρ) c).arrAt 4 cfg1.N :=
  calc W6 m ρ c (Proc.devRef .tc main_v35_0)
    _ = W5 m ρ c (Proc.devRef .tc main_v35_0) := W6_of_ne m ρ c main_v35_0 (by decide)
    _ = W4 m ρ c (Proc.devRef .tc main_v35_0) := StableHlo.after_of_forall_not_mem (b := Proc.devRef .tc main_v35_0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (dat1 (V3 m ρ) c).arrAt 4 cfg1.N := W4_arr m ρ c 4

local notation "𝕄" => MT nD τ sig Unit (Elt Ideal) ℕ (UR sig nD τ) ℕ

section Run
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic
open Idealize.ShloMosaic.Pipeline (Dat Cfg Window BodyObligation cellOf)

set_option backward.isDefEq.respectTransparency.types false in
/-- Every weakly fair execution terminates without a fault; at the end the node output is what the last region's
    write-backs leave, the hyperedge output what the second region's leave, and every argument is as launched. -/
theorem run_all : θ_run (defs (F := Ideal)) (onTc (τ := τ) (main (F := Ideal))) ⟨m, fun _ => 0, ρ⟩ (fun r => ∀ c : Dev nD,
      r.2.mem ((c.tc : Thread nD τ).loc main_v64) = (dat2 (V5 m ρ) c).arrAt 2 cfg2.N
      ∧ r.2.mem ((c.tc : Thread nD τ).loc main_v35_0) = (dat1 (V3 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨(h c _ (mem_uc main_v64 (by decide))).trans (W6_arr m ρ c 2),
       (h c _ (mem_uc main_v35_0 (by decide))).trans (W6_v35_0 m ρ c),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c),
       (h c _ (mem_uc main_arg14 (by decide))).trans (W6_main_arg14 m ρ c)⟩)

end Run

/-! ## Arguments read at the later boundaries

No host operation and no region writes an argument array, so at every boundary an argument holds its launch contents. -/

theorem W2_arg2 : W2 m ρ c (Proc.devRef .tc main_arg2) = m ((c.tc : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c.tc : Thread nD τ).loc main_arg2) := rfl

theorem W2_arg3 : W2 m ρ c (Proc.devRef .tc main_arg3) = m ((c.tc : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c.tc : Thread nD τ).loc main_arg3) := rfl

theorem W2_arg4 : W2 m ρ c (Proc.devRef .tc main_arg4) = m ((c.tc : Thread nD τ).loc main_arg4) :=
  calc W2 m ρ c (Proc.devRef .tc main_arg4)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c.tc : Thread nD τ).loc main_arg4) := rfl

theorem W2_arg5 : W2 m ρ c (Proc.devRef .tc main_arg5) = m ((c.tc : Thread nD τ).loc main_arg5) :=
  calc W2 m ρ c (Proc.devRef .tc main_arg5)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c.tc : Thread nD τ).loc main_arg5) := rfl

theorem W2_arg11 : W2 m ρ c (Proc.devRef .tc main_arg11) = m ((c.tc : Thread nD τ).loc main_arg11) :=
  calc W2 m ρ c (Proc.devRef .tc main_arg11)
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c.tc : Thread nD τ).loc main_arg11) := rfl

theorem W2_arg12 : W2 m ρ c (Proc.devRef .tc main_arg12) = m ((c.tc : Thread nD τ).loc main_arg12) :=
  calc W2 m ρ c (Proc.devRef .tc main_arg12)
    _ = W1 m ρ c (Proc.devRef .tc main_arg12) := W2_of_ne m ρ c main_arg12 (by decide)
    _ = W0 m ρ c (Proc.devRef .tc main_arg12) := StableHlo.after_of_forall_not_mem (b := Proc.devRef .tc main_arg12) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c.tc : Thread nD τ).loc main_arg12) := rfl

theorem W2_arg13 : W2 m ρ c (Proc.devRef .tc main_arg13) = m ((c.tc : Thread nD τ).loc main_arg13) :=
  calc W2 m ρ c (Proc.devRef .tc main_arg13)
    _ = W1 m ρ c (Proc.devRef .tc main_arg13) := W2_of_ne m ρ c main_arg13 (by decide)
    _ = W0 m ρ c (Proc.devRef .tc main_arg13) := StableHlo.after_of_forall_not_mem (b := Proc.devRef .tc main_arg13) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c.tc : Thread nD τ).loc main_arg13) := rfl

theorem W2_arg14 : W2 m ρ c (Proc.devRef .tc main_arg14) = m ((c.tc : Thread nD τ).loc main_arg14) :=
  calc W2 m ρ c (Proc.devRef .tc main_arg14)
    _ = W1 m ρ c (Proc.devRef .tc main_arg14) := W2_of_ne m ρ c main_arg14 (by decide)
    _ = W0 m ρ c (Proc.devRef .tc main_arg14) := StableHlo.after_of_forall_not_mem (b := Proc.devRef .tc main_arg14) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c.tc : Thread nD τ).loc main_arg14) := rfl

theorem W4_arg3 : W4 m ρ c (Proc.devRef .tc main_arg3) = m ((c.tc : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c.tc : Thread nD τ).loc main_arg3) := W2_arg3 m ρ c

theorem W4_arg4 : W4 m ρ c (Proc.devRef .tc main_arg4) = m ((c.tc : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c.tc : Thread nD τ).loc main_arg4) := W2_arg4 m ρ c

theorem W4_arg12 : W4 m ρ c (Proc.devRef .tc main_arg12) = m ((c.tc : Thread nD τ).loc main_arg12) :=
  calc W4 m ρ c (Proc.devRef .tc main_arg12)
    _ = W3 m ρ c (Proc.devRef .tc main_arg12) := W4_of_ne m ρ c main_arg12 (by decide)
    _ = W2 m ρ c (Proc.devRef .tc main_arg12) := StableHlo.after_of_forall_not_mem (b := Proc.devRef .tc main_arg12) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c.tc : Thread nD τ).loc main_arg12) := W2_arg12 m ρ c

theorem W4_arg13 : W4 m ρ c (Proc.devRef .tc main_arg13) = m ((c.tc : Thread nD τ).loc main_arg13) :=
  calc W4 m ρ c (Proc.devRef .tc main_arg13)
    _ = W3 m ρ c (Proc.devRef .tc main_arg13) := W4_of_ne m ρ c main_arg13 (by decide)
    _ = W2 m ρ c (Proc.devRef .tc main_arg13) := StableHlo.after_of_forall_not_mem (b := Proc.devRef .tc main_arg13) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c.tc : Thread nD τ).loc main_arg13) := W2_arg13 m ρ c

theorem W4_arg14 : W4 m ρ c (Proc.devRef .tc main_arg14) = m ((c.tc : Thread nD τ).loc main_arg14) :=
  calc W4 m ρ c (Proc.devRef .tc main_arg14)
    _ = W3 m ρ c (Proc.devRef .tc main_arg14) := W4_of_ne m ρ c main_arg14 (by decide)
    _ = W2 m ρ c (Proc.devRef .tc main_arg14) := StableHlo.after_of_forall_not_mem (b := Proc.devRef .tc main_arg14) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c.tc : Thread nD τ).loc main_arg14) := W2_arg14 m ρ c

/-! ## The second region's entry -/

/-- The learnt slope reaches the second region as a one-by-one array. -/
theorem entry1_a : V3 m ρ c main_v33 = shapeCast S1x1 (m ((c.tc : Thread nD τ).loc main_arg12)) shapeCasts_S_S1x1 := by
  show StableHlo.after hostOps1 (W2 m ρ c) (Proc.devRef .tc main_v33) = _
  dsimp only [hostOps1]
  after_results
  rw [W2_arg12]
  rfl

/-- The third layer's weights, transposed before the first region, are still in place at the second. -/
theorem entry1_w : V3 m ρ c main_v2
    = transpose S128x128 [1, 0] (m ((c.tc : Thread nD τ).loc main_arg10)) transposes_S128x128_S128x128_1_0 :=
  calc V3 m ρ c main_v2
    _ = W2 m ρ c (Proc.devRef .tc main_v2) := StableHlo.after_of_forall_not_mem (b := Proc.devRef .tc main_v2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v2) := W2_of_ne m ρ c main_v2 (by decide)
    _ = transpose S128x128 [1, 0] (m ((c.tc : Thread nD τ).loc main_arg10)) transposes_S128x128_S128x128_1_0 := by
        show StableHlo.after hostOps0 (W0 m ρ c) (Proc.devRef .tc main_v2) = _
        dsimp only [hostOps0]
        after_results

/-- The third layer's bias reaches the second region laid as one row. -/
theorem entry1_b : V3 m ρ c main_v34 = shapeCast S1x128 (m ((c.tc : Thread nD τ).loc main_arg11)) shapeCasts_S128_S1x128 := by
  show StableHlo.after hostOps1 (W2 m ρ c) (Proc.devRef .tc main_v34) = _
  dsimp only [hostOps1]
  after_results
  rw [W2_arg11]
  rfl

/-- Over any contents at the first region's exit, the hyperedge sums are the rows carried along the incidence pairs:
    the stretch of host operations between the first two regions, read at the array of sums. -/
theorem hedges_of (U : Valuation τ sig (Elt Ideal)) :
    StableHlo.after hostOps1 U (Proc.devRef .tc main_v32)
      = Cert.Hyper.toHedges (U (Proc.devRef .tc main_v5)) (U (Proc.devRef .tc main_arg2)) (U (Proc.devRef .tc main_arg5)) (U (Proc.devRef .tc main_arg13)) (U (Proc.devRef .tc main_arg14)) := by
  dsimp only [hostOps1]
  after_results_simp
  rfl

/-- The second region is entered at the first region's result carried to the hyperedges. -/
theorem entry1_h : V3 m ρ c main_v32
    = Cert.Hyper.toHedges ((dat0 (V1 m ρ) c).arrAt 5 cfg0.N) (m ((c.tc : Thread nD τ).loc main_arg2)) (m ((c.tc : Thread nD τ).loc main_arg5)) (m ((c.tc : Thread nD τ).loc main_arg13)) (m ((c.tc : Thread nD τ).loc main_arg14)) := by
  have h5 : W2 m ρ c (Proc.devRef .tc main_v5) = (dat0 (V1 m ρ) c).arrAt 5 cfg0.N := W2_arr m ρ c 5
  show StableHlo.after hostOps1 (W2 m ρ c) (Proc.devRef .tc main_v32) = _
  rw [hedges_of, h5, W2_arg2, W2_arg5, W2_arg13, W2_arg14]

/-! ## The third region's entry -/

/-- The learnt slope reaches the third region as a one-by-one array. -/
theorem entry2_a : V5 m ρ c main_v63 = shapeCast S1x1 (m ((c.tc : Thread nD τ).loc main_arg12)) shapeCasts_S_S1x1 := by
  show StableHlo.after hostOps2 (W4 m ρ c) (Proc.devRef .tc main_v63) = _
  dsimp only [hostOps2]
  after_results
  rw [W4_arg12]
  rfl

/-- Over any contents at the second region's exit, the node sums are the rows carried back along the incidence pairs:
    the stretch of host operations between the last two regions, read at the array of sums. -/
theorem nodes_of (U : Valuation τ sig (Elt Ideal)) :
    StableHlo.after hostOps2 U (Proc.devRef .tc main_v62)
      = Cert.Hyper.toNodes (U (Proc.devRef .tc main_v35_1)) (U (Proc.devRef .tc main_arg4)) (U (Proc.devRef .tc main_arg3)) (U (Proc.devRef .tc main_arg13)) (U (Proc.devRef .tc main_arg14)) := by
  dsimp only [hostOps2]
  after_results_simp
  rfl

/-- The third region is entered at the second region's projected result carried back to the nodes. -/
theorem entry2_h : V5 m ρ c main_v62
    = Cert.Hyper.toNodes ((dat1 (V3 m ρ) c).arrAt 5 cfg1.N) (m ((c.tc : Thread nD τ).loc main_arg4)) (m ((c.tc : Thread nD τ).loc main_arg3)) (m ((c.tc : Thread nD τ).loc main_arg13)) (m ((c.tc : Thread nD τ).loc main_arg14)) := by
  have h5 : W4 m ρ c (Proc.devRef .tc main_v35_1) = (dat1 (V3 m ρ) c).arrAt 5 cfg1.N := W4_arr m ρ c 5
  show StableHlo.after hostOps2 (W4 m ρ c) (Proc.devRef .tc main_v62) = _
  rw [nodes_of, h5, W4_arg4, W4_arg3, W4_arg13, W4_arg14]

end Cert.Hyper.Boundaries

end
-- ==== Proof.LibMatmul2d.lean ====
/-
  A matrix product of the exact instance read at an index, for two-dimensional operands.

  At the exact instance a product into a zero accumulator is, at the output index (i, j), the sum over the
  contraction index of the operands' products. The contraction index is a one-axis multi-index; the operands are
  addressed through the dimension record's index maps. This file turns that into the textbook form

      (A · B) (i, j) = Σ_{k < K} A (i, k) · B (k, j)            (M×K by K×N),
      (A · Bᵀ) (i, j) = Σ_{k < K} A (i, k) · B (j, k)           (M×K by N×K),

  with the sum over `Fin K` and every index written by coordinates, for the library's two canonical dimension
  records. A printed program's own record with the same six index lists is equal to the canonical one by `rfl`
  (its well-formedness field is a proposition), so `rw [show dot_… = DotDims.plain M K N from rfl]` brings a printed
  product under these lemmas.
-/
import Idealize.ShloMosaic.Lib.ValueIdx
import Idealize.ShloMosaic.PureOps.Ideal.Laws

noncomputable section

namespace Cert.LibMatmul2d

open Idealize.ShloMosaic Idealize.ShloMosaic.ValueIdx
open scoped BigOperators

variable {M K N : ℕ}

/-! ## M×K by K×N -/

section Plain

local notation "D" => DotDims.plain M K N

theorem plain_rank : (D).contr.rank = 1 := rfl
theorem plain_size : (D).contr.size ⟨0, by rw [plain_rank]; exact Nat.one_pos⟩ = K := rfl

/-- The left operand's row is the output's row. -/
theorem plain_lhs_row (i : Fin M) (j : Fin N) (k : (D).contr.Idx) : (D).lhsIdx (ix2 i j) k (0 : Fin 2) = i := by
  unfold DotDims.lhsIdx
  simp [DotDims.plain]
  first | rfl | exact Fin.ext rfl | (apply Fin.ext; simp)

/-- The right operand's column is the output's column. -/
theorem plain_rhs_col (i : Fin M) (j : Fin N) (k : (D).contr.Idx) : (D).rhsIdx (ix2 i j) k (1 : Fin 2) = j := by
  unfold DotDims.rhsIdx
  simp [DotDims.plain]
  first | rfl | exact Fin.ext rfl | (apply Fin.ext; simp)

/-- The product of an M×K by a K×N operand into a zero accumulator, at (i, j). -/
theorem matmul_plain_apply {φ₁ φ₂ : FTy} (a : FVec Ideal ⟨2, ![M, K]⟩ φ₁) (b : FVec Ideal ⟨2, ![K, N]⟩ φ₂)
    (i : Fin M) (j : Fin N) :
    FloatOps.matmul (D) none a b (constant ⟨2, ![M, N]⟩ .f32 0x00000000#32) (ix2 i j)
      = ∑ k : Fin K, a (ix2 i k) * b (ix2 k j) := by
  rw [Ideal.matmul_constant_zero_apply, ← Equiv.sum_comp (contrEquiv1 (D) K plain_rank plain_size).symm]
  refine Finset.sum_congr rfl fun k _ => ?_
  have hl : (D).lhsIdx (ix2 i j) ((contrEquiv1 (D) K plain_rank plain_size).symm k) = ix2 i k := by
    funext ax
    match ax with
    | ⟨0, _⟩ => exact plain_lhs_row i j _
    | ⟨1, _⟩ =>
      refine Fin.ext ?_
      rw [show (⟨1, by decide⟩ : Fin 2) = (1 : Fin 2) from rfl, DotDims.lhsIdx_val_of_single (D) (cl := (1 : Fin 2)) rfl]
      exact contrEquiv1_symm_val (D) K plain_rank plain_size k
  have hr : (D).rhsIdx (ix2 i j) ((contrEquiv1 (D) K plain_rank plain_size).symm k) = ix2 k j := by
    funext ax
    match ax with
    | ⟨0, _⟩ =>
      refine Fin.ext ?_
      rw [show (⟨0, by decide⟩ : Fin 2) = (0 : Fin 2) from rfl, DotDims.rhsIdx_val_of_single (D) (cr := (0 : Fin 2)) rfl]
      exact contrEquiv1_symm_val (D) K plain_rank plain_size k
    | ⟨1, _⟩ => exact plain_rhs_col i j _
  rw [hl, hr]

end Plain

/-! ## M×K by N×K: the right operand contracted on its last axis -/

section TransposedRhs

local notation "D" => DotDims.transposedRhs M K N

theorem trhs_rank : (D).contr.rank = 1 := rfl
theorem trhs_size : (D).contr.size ⟨0, by rw [trhs_rank]; exact Nat.one_pos⟩ = K := rfl

theorem trhs_lhs_row (i : Fin M) (j : Fin N) (k : (D).contr.Idx) : (D).lhsIdx (ix2 i j) k (0 : Fin 2) = i := by
  unfold DotDims.lhsIdx
  simp [DotDims.transposedRhs]
  first | rfl | exact Fin.ext rfl | (apply Fin.ext; simp)

theorem trhs_rhs_row (i : Fin M) (j : Fin N) (k : (D).contr.Idx) : (D).rhsIdx (ix2 i j) k (0 : Fin 2) = j := by
  unfold DotDims.rhsIdx
  simp [DotDims.transposedRhs]
  first | rfl | exact Fin.ext rfl | (apply Fin.ext; simp)

/-- The product of an M×K operand with the transpose of an N×K operand into a zero accumulator, at (i, j). -/
theorem matmul_transposedRhs_apply {φ₁ φ₂ : FTy} (a : FVec Ideal ⟨2, ![M, K]⟩ φ₁) (b : FVec Ideal ⟨2, ![N, K]⟩ φ₂)
    (i : Fin M) (j : Fin N) :
    FloatOps.matmul (D) none a b (constant ⟨2, ![M, N]⟩ .f32 0x00000000#32) (ix2 i j)
      = ∑ k : Fin K, a (ix2 i k) * b (ix2 j k) := by
  rw [Ideal.matmul_constant_zero_apply, ← Equiv.sum_comp (contrEquiv1 (D) K trhs_rank trhs_size).symm]
  refine Finset.sum_congr rfl fun k _ => ?_
  have hl : (D).lhsIdx (ix2 i j) ((contrEquiv1 (D) K trhs_rank trhs_size).symm k) = ix2 i k := by
    funext ax
    match ax with
    | ⟨0, _⟩ => exact trhs_lhs_row i j _
    | ⟨1, _⟩ =>
      refine Fin.ext ?_
      rw [show (⟨1, by decide⟩ : Fin 2) = (1 : Fin 2) from rfl, DotDims.lhsIdx_val_of_single (D) (cl := (1 : Fin 2)) rfl]
      exact contrEquiv1_symm_val (D) K trhs_rank trhs_size k
  have hr : (D).rhsIdx (ix2 i j) ((contrEquiv1 (D) K trhs_rank trhs_size).symm k) = ix2 j k := by
    funext ax
    match ax with
    | ⟨0, _⟩ => exact trhs_rhs_row i j _
    | ⟨1, _⟩ =>
      refine Fin.ext ?_
      rw [show (⟨1, by decide⟩ : Fin 2) = (1 : Fin 2) from rfl, DotDims.rhsIdx_val_of_single (D) (cr := (1 : Fin 2)) rfl]
      exact contrEquiv1_symm_val (D) K trhs_rank trhs_size k
  rw [hl, hr]

end TransposedRhs

/-! ## K×M by K×N: both operands contracted on their first axis -/

/-- `<[0], [0], [1], [1], [0, 1, 1, 1], [], []>`: the transpose of a K×M operand by a K×N operand. -/
def transposedLhs (K M N : Nat) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

section TransposedLhs

local notation "D" => transposedLhs K M N

theorem tlhs_rank : (D).contr.rank = 1 := rfl
theorem tlhs_size : (D).contr.size ⟨0, by rw [tlhs_rank]; exact Nat.one_pos⟩ = K := rfl

theorem tlhs_lhs_col (i : Fin M) (j : Fin N) (k : (D).contr.Idx) : (D).lhsIdx (ix2 i j) k (1 : Fin 2) = i := by
  unfold DotDims.lhsIdx
  simp [transposedLhs]
  first | rfl | exact Fin.ext rfl | (apply Fin.ext; simp)

theorem tlhs_rhs_col (i : Fin M) (j : Fin N) (k : (D).contr.Idx) : (D).rhsIdx (ix2 i j) k (1 : Fin 2) = j := by
  unfold DotDims.rhsIdx
  simp [transposedLhs]
  first | rfl | exact Fin.ext rfl | (apply Fin.ext; simp)

/-- The product of the transpose of a K×M operand with a K×N operand into a zero accumulator, at (i, j). -/
theorem matmul_transposedLhs_apply {φ₁ φ₂ : FTy} (a : FVec Ideal ⟨2, ![K, M]⟩ φ₁) (b : FVec Ideal ⟨2, ![K, N]⟩ φ₂)
    (i : Fin M) (j : Fin N) :
    FloatOps.matmul (D) none a b (constant ⟨2, ![M, N]⟩ .f32 0x00000000#32) (ix2 i j)
      = ∑ k : Fin K, a (ix2 k i) * b (ix2 k j) := by
  rw [Ideal.matmul_constant_zero_apply, ← Equiv.sum_comp (contrEquiv1 (D) K tlhs_rank tlhs_size).symm]
  refine Finset.sum_congr rfl fun k _ => ?_
  have hl : (D).lhsIdx (ix2 i j) ((contrEquiv1 (D) K tlhs_rank tlhs_size).symm k) = ix2 k i := by
    funext ax
    match ax with
    | ⟨0, _⟩ =>
      refine Fin.ext ?_
      rw [show (⟨0, by decide⟩ : Fin 2) = (0 : Fin 2) from rfl, DotDims.lhsIdx_val_of_single (D) (cl := (0 : Fin 2)) rfl]
      exact contrEquiv1_symm_val (D) K tlhs_rank tlhs_size k
    | ⟨1, _⟩ => exact tlhs_lhs_col i j _
  have hr : (D).rhsIdx (ix2 i j) ((contrEquiv1 (D) K tlhs_rank tlhs_size).symm k) = ix2 k j := by
    funext ax
    match ax with
    | ⟨0, _⟩ =>
      refine Fin.ext ?_
      rw [show (⟨0, by decide⟩ : Fin 2) = (0 : Fin 2) from rfl, DotDims.rhsIdx_val_of_single (D) (cr := (0 : Fin 2)) rfl]
      exact contrEquiv1_symm_val (D) K tlhs_rank tlhs_size k
    | ⟨1, _⟩ => exact tlhs_rhs_col i j _
  rw [hl, hr]

end TransposedLhs

end Cert.LibMatmul2d

end
-- ==== Proof.LibHostStack.lean ====
/-
  Stacks of matrices on the host, read at an index by coordinates, for any extents.

  A rank-3 array [K, a, b] is a stack of K matrices. Three layout steps move between the stack and its matrices:
  cutting slab k out of the stack and dropping the unit axis ([K, a, b] → [1, a, b] → [a, b]) reads the stack at
  (k, n, d); laying a matrix out as a stack of one ([a, b] → [1, a, b]) reads the matrix at (n, d) whatever the unit
  coordinate; joining four stacks of one along the leading axis reads piece k. At the exact instance the host's
  matrix product of an M × K by a K × N operand is the textbook sum over the K products.
-/
import Idealize.ShloMosaic.Lib.ValueIdx
import Idealize.ShloMosaic.Lib.ValueLayout
import Idealize.ShloMosaic.Lib.Pipeline.Value
import Idealize.ShloMosaic.Lib.KernelVsHost
import proofs.«172786_j57234734187132_1_alg».proof.Proof.LibMatmul2d

noncomputable section

namespace Cert.LibHostStack

open Idealize.ShloMosaic Idealize.ShloMosaic.ValueIdx
open scoped BigOperators

variable {α : Type}

/-- Slab `k` of a stack, as a matrix: the slice of extent one at offset `k` along the leading axis, its unit axis
    dropped, reads at (n, d) the stack at (k, n, d). -/
theorem slab_apply {K a b : ℕ} (o : ℕ) (y : (⟨3, ![K, a, b]⟩ : Shape).Idx → α)
    (hs : (⟨3, ![K, a, b]⟩ : Shape).Slices ![o, 0, 0] ⟨3, ![1, a, b]⟩)
    (hc : (⟨3, ![1, a, b]⟩ : Shape).ShapeCasts ⟨2, ![a, b]⟩) (k : Fin K) (hk : k.val = o) (n : Fin a) (d : Fin b) :
    shapeCast ⟨2, ![a, b]⟩ (extractStridedSlice ⟨3, ![1, a, b]⟩ ![o, 0, 0] y hs) hc (ix2 n d) = y (ix3 k n d) := by
  refine (shapeCast_1ab_ab_apply _ hc n d).trans ?_
  refine extractStridedSlice_apply _ y hs _ _ fun ax => ?_
  match ax with
  | ⟨0, _⟩ => show k.val = o + 0; omega
  | ⟨1, _⟩ => show n.val = 0 + n.val; omega
  | ⟨2, _⟩ => show d.val = 0 + d.val; omega

/-- A matrix laid out as a stack of one reads, at (u, n, d), the matrix at (n, d). -/
theorem lift_apply {a b : ℕ} (z : (⟨2, ![a, b]⟩ : Shape).Idx → α)
    (h : (⟨2, ![a, b]⟩ : Shape).BroadcastsInDim ⟨3, ![1, a, b]⟩ (![1, 2] : Fin 2 → Fin 3)) (u : Fin 1) (n : Fin a) (d : Fin b) :
    broadcastInDim ⟨3, ![1, a, b]⟩ ![1, 2] h z (ix3 u n d) = z (ix2 n d) := by
  have hn := n.isLt
  have hd := d.isLt
  refine broadcastInDim_apply _ h z _ _ fun ax => ?_
  match ax with
  | ⟨0, _⟩ => show n.val = if a = 1 then 0 else n.val; split_ifs with h1 <;> omega
  | ⟨1, _⟩ => show d.val = if b = 1 then 0 else d.val; split_ifs with h1 <;> omega

/-- Four stacks of one joined along the leading axis read, at (k, n, d), piece `k` at (0, n, d). -/
theorem stack4_apply {a b : ℕ} (p0 p1 p2 p3 : (⟨3, ![1, a, b]⟩ : Shape).Idx → α)
    (h : Shape.Concatenates [(⟨3, ![1, a, b]⟩ : Shape), ⟨3, ![1, a, b]⟩, ⟨3, ![1, a, b]⟩, ⟨3, ![1, a, b]⟩] ⟨3, ![4, a, b]⟩ 0)
    (k : Fin 4) (n : Fin a) (d : Fin b) :
    concatenate ⟨3, ![4, a, b]⟩ 0 [⟨⟨3, ![1, a, b]⟩, p0⟩, ⟨⟨3, ![1, a, b]⟩, p1⟩, ⟨⟨3, ![1, a, b]⟩, p2⟩, ⟨⟨3, ![1, a, b]⟩, p3⟩] h (ix3 k n d)
      = (![p0, p1, p2, p3] k) (ix3 (0 : Fin 1) n d) :=
  concatenate_ofFn_unit_apply (t := ⟨3, ![4, a, b]⟩) (s₁ := ⟨3, ![1, a, b]⟩) (0 : Fin 3) (fun q : Fin 4 => ![p0, p1, p2, p3] q) h rfl rfl
    (ix3 k n d) k rfl (ix3 (0 : Fin 1) n d) (fun bx hb => by
      match bx with
      | ⟨0, _⟩ => exact absurd rfl hb
      | ⟨1, _⟩ => rfl
      | ⟨2, _⟩ => rfl)

/-- The host's product of an M × K by a K × N operand at the exact instance, at (i, j). -/
theorem dotGeneral_plain_apply {M K N : ℕ} {φ₁ φ₂ : FTy} (x : FVec Ideal ⟨2, ![M, K]⟩ φ₁) (y : FVec Ideal ⟨2, ![K, N]⟩ φ₂)
    (i : Fin M) (j : Fin N) :
    Host.dotGeneral (DotDims.plain M K N) none x y (ix2 i j) = ∑ k : Fin K, x (ix2 i k) * y (ix2 k j) := by
  rw [← matmul_zero_eq_dotGeneral]
  exact Cert.LibMatmul2d.matmul_plain_apply x y i j

end Cert.LibHostStack

end
-- ==== Proof.LibColumns.lean ====
/-
  Columns of a matrix, and a matrix assembled from columns, read at an index — for any extents and any element type.

  A column taken out of an `[a, n]` matrix as a one-column slice and flattened to a vector reads, at `i`, the matrix
  at `(i, column)`. A vector made a one-column matrix again (by a broadcast along a new trailing unit axis) reads the
  vector at the row. Twelve one-column matrices laid side by side read, at `(r, k)`, the `k`-th of them at row `r`.
  And a vector of per-column values laid as one row by a broadcast (`[b] → [1, b]`) and repeated down the rows by another
  (`[1, b] → [a, b]`) reads, at `(p, c)`, the vector at `c`.
-/
import Idealize.ShloMosaic.Lib.ValueLayout
import Idealize.ShloMosaic.Lib.Pipeline.Value

noncomputable section

namespace Cert.LibColumns

open Idealize.ShloMosaic Idealize.ShloMosaic.ValueIdx

variable {α : Type}

/-! ## One column in, one column out -/

/-- An `[a, 1]` array cast to `[a]` reads, at `i`, the operand's one column at row `i`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- Column `k` of an `[a, n]` matrix — the one-column slice at offset `o = k`, cast to a vector — reads, at `i`,
    the matrix at `(i, k)`. -/
theorem column_apply {a n : ℕ} (o : ℕ) (x : (⟨2, ![a, n]⟩ : Shape).Idx → α)
    (hs : (⟨2, ![a, n]⟩ : Shape).Slices ![0, o] ⟨2, ![a, 1]⟩) (hc : (⟨2, ![a, 1]⟩ : Shape).ShapeCasts ⟨1, ![a]⟩)
    (i : Fin a) (k : Fin n) (hk : k.val = o) :
    shapeCast ⟨1, ![a]⟩ (extractStridedSlice ⟨2, ![a, 1]⟩ ![0, o] x hs) hc (ix1 i) = x (ix2 i k) :=
  (shapeCast_a1_a_apply _ hc i).trans (slice2_axis1_apply o x hs i (0 : Fin 1) k (by show k.val = o + 0; omega))

/-- A vector `[a]` broadcast along a new trailing unit axis (`dims = [0]`) reads, at `(i, u)`, the vector at `i`. -/
theorem broadcastInDim_a_a1_apply {a : ℕ} (x : (⟨1, ![a]⟩ : Shape).Idx → α)
    (h : (⟨1, ![a]⟩ : Shape).BroadcastsInDim ⟨2, ![a, 1]⟩ (![0] : Fin 1 → Fin (⟨2, ![a, 1]⟩ : Shape).rank))
    (i : Fin a) (u : Fin 1) : broadcastInDim ⟨2, ![a, 1]⟩ ![0] h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-! ## A row of per-column values over a matrix, the host's way -/

/-- A vector `[b]` laid as one row by a broadcast (`dims = [1]`) reads, at `(u, c)`, the vector at `c`. -/
theorem broadcastInDim_b_1b_apply {b : ℕ} (x : (⟨1, ![b]⟩ : Shape).Idx → α)
    (h : (⟨1, ![b]⟩ : Shape).BroadcastsInDim ⟨2, ![1, b]⟩ (![1] : Fin 1 → Fin (⟨2, ![1, b]⟩ : Shape).rank))
    (u : Fin 1) (c : Fin b) : broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- A one-row matrix `[1, b]` repeated down `a` rows by a broadcast (`dims = [0, 1]`) reads, at `(p, c)`, the row at `c`. -/
theorem broadcastInDim_1b_ab_apply {a b : ℕ} (x : (⟨2, ![1, b]⟩ : Shape).Idx → α)
    (h : (⟨2, ![1, b]⟩ : Shape).BroadcastsInDim ⟨2, ![a, b]⟩ (![0, 1] : Fin 2 → Fin (⟨2, ![a, b]⟩ : Shape).rank))
    (p : Fin a) (c : Fin b) : broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => exact (if_pos rfl).symm
  | ⟨1, _⟩ =>
    show c.val = if b = 1 then 0 else c.val
    split
    · have := c.isLt; omega
    · rfl

/-- Per-column values `x : [b]` laid as a row and repeated down the rows, both by broadcasts: `x c` everywhere in column `c`. -/
theorem perColumnHost_apply {a b : ℕ} (x : (⟨1, ![b]⟩ : Shape).Idx → α)
    (h₁ : (⟨1, ![b]⟩ : Shape).BroadcastsInDim ⟨2, ![1, b]⟩ (![1] : Fin 1 → Fin (⟨2, ![1, b]⟩ : Shape).rank))
    (h₂ : (⟨2, ![1, b]⟩ : Shape).BroadcastsInDim ⟨2, ![a, b]⟩ (![0, 1] : Fin 2 → Fin (⟨2, ![a, b]⟩ : Shape).rank))
    (p : Fin a) (c : Fin b) :
    broadcastInDim ⟨2, ![a, b]⟩ ![0, 1] h₂ (broadcastInDim ⟨2, ![1, b]⟩ ![1] h₁ x) (ix2 p c) = x (ix1 c) :=
  (broadcastInDim_1b_ab_apply _ h₂ p c).trans (broadcastInDim_b_1b_apply x h₁ 0 c)

/-! ## Twelve columns side by side -/

/-- Twelve one-column matrices concatenated along the column axis read, at `(r, k)`, the `k`-th of them at row `r`. -/
theorem stack12_apply {a : ℕ} (p0 p1 p2 p3 p4 p5 p6 p7 p8 p9 p10 p11 : (⟨2, ![a, 1]⟩ : Shape).Idx → α)
    (h : Shape.Concatenates [(⟨2, ![a, 1]⟩ : Shape), ⟨2, ![a, 1]⟩, ⟨2, ![a, 1]⟩, ⟨2, ![a, 1]⟩, ⟨2, ![a, 1]⟩, ⟨2, ![a, 1]⟩,
      ⟨2, ![a, 1]⟩, ⟨2, ![a, 1]⟩, ⟨2, ![a, 1]⟩, ⟨2, ![a, 1]⟩, ⟨2, ![a, 1]⟩, ⟨2, ![a, 1]⟩] ⟨2, ![a, 12]⟩ 1)
    (r : Fin a) (k : Fin 12) :
    concatenate ⟨2, ![a, 12]⟩ 1 [⟨⟨2, ![a, 1]⟩, p0⟩, ⟨⟨2, ![a, 1]⟩, p1⟩, ⟨⟨2, ![a, 1]⟩, p2⟩, ⟨⟨2, ![a, 1]⟩, p3⟩,
        ⟨⟨2, ![a, 1]⟩, p4⟩, ⟨⟨2, ![a, 1]⟩, p5⟩, ⟨⟨2, ![a, 1]⟩, p6⟩, ⟨⟨2, ![a, 1]⟩, p7⟩, ⟨⟨2, ![a, 1]⟩, p8⟩,
        ⟨⟨2, ![a, 1]⟩, p9⟩, ⟨⟨2, ![a, 1]⟩, p10⟩, ⟨⟨2, ![a, 1]⟩, p11⟩] h (ix2 r k)
      = (![p0, p1, p2, p3, p4, p5, p6, p7, p8, p9, p10, p11] : Fin 12 → (⟨2, ![a, 1]⟩ : Shape).Idx → α) k (ix2 r (0 : Fin 1)) := by
  refine concatenate_ofFn_unit_apply (t := ⟨2, ![a, 12]⟩) (s₁ := ⟨2, ![a, 1]⟩) (1 : Fin 2) (N := 12)
    (![p0, p1, p2, p3, p4, p5, p6, p7, p8, p9, p10, p11] : Fin 12 → (⟨2, ![a, 1]⟩ : Shape).Idx → α) h rfl rfl (ix2 r k) k rfl
    (ix2 r (0 : Fin 1)) fun b hb => ?_
  match b with
  | ⟨0, _⟩ => rfl
  | ⟨1, _⟩ => exact absurd rfl hb

/-- Twelve values listed, a function applied to the `k`-th of them: it is the `k`-th of the twelve results. -/
theorem vec12_map {β γ : Type} (g : β → γ) (a0 a1 a2 a3 a4 a5 a6 a7 a8 a9 a10 a11 : β)
    (m0 m1 m2 m3 m4 m5 m6 m7 m8 m9 m10 m11 : γ)
    (h0 : g a0 = m0) (h1 : g a1 = m1) (h2 : g a2 = m2) (h3 : g a3 = m3) (h4 : g a4 = m4) (h5 : g a5 = m5)
    (h6 : g a6 = m6) (h7 : g a7 = m7) (h8 : g a8 = m8) (h9 : g a9 = m9) (h10 : g a10 = m10) (h11 : g a11 = m11)
    (k : Fin 12) :
    g ((![a0, a1, a2, a3, a4, a5, a6, a7, a8, a9, a10, a11] : Fin 12 → β) k)
      = (![m0, m1, m2, m3, m4, m5, m6, m7, m8, m9, m10, m11] : Fin 12 → γ) k := by
  subst h0 h1 h2 h3 h4 h5 h6 h7 h8 h9 h10 h11
  fin_cases k <;> rfl

end Cert.LibColumns

end
-- ==== Proof.LibLinear.lean ====
/-
  A linear layer — a matrix product plus one bias row repeated down the rows — read at an index at the exact
  instance, for any extents, on the vector unit and on the host.

  * `vectorLinear_apply`: the vector unit's `h · W` into a zero accumulator plus a one-row bias broadcast down the rows,
    at `(p, q)`, is `∑ k, h(p, k) · W(k, q) + b(0, q)`.
  * `hostLinear_apply`: the host's `dot_general h W` plus a one-row bias broadcast down the rows (`dims = [0, 1]`), at
    `(p, q)`, is the same sum.
  * `row_eq_cast`: a vector laid as one row by a broadcast (`dims = [1]`) and the same vector reshaped to one row are
    one array.
-/
import Idealize.ShloMosaic.Lib.ValueIdx
import Idealize.ShloMosaic.Lib.ValueLayout
import Idealize.ShloMosaic.Lib.Pipeline.Value
import Idealize.ShloMosaic.PureOps.Ideal.Laws
import proofs.«172786_j57234734187132_1_alg».proof.Proof.LibMatmul2d
import proofs.«172786_j57234734187132_1_alg».proof.Proof.LibHostStack
import proofs.«172786_j57234734187132_1_alg».proof.Proof.LibColumns

noncomputable section

namespace Cert.LibLinear

open Idealize.ShloMosaic Idealize.ShloMosaic.ValueIdx
open scoped BigOperators

variable {n K N : ℕ}

/-- A linear layer on the vector unit, at `(p, q)`. -/
theorem vectorLinear_apply {φ₁ φ₂ : FTy} (h : FVec Ideal ⟨2, ![n, K]⟩ φ₁) (W : FVec Ideal ⟨2, ![K, N]⟩ φ₂)
    (b : FVec Ideal ⟨2, ![1, N]⟩ .f32) (hb : (⟨2, ![1, N]⟩ : Shape).Broadcasts ⟨2, ![n, N]⟩) (p : Fin n) (q : Fin N) :
    addf (matmul (DotDims.plain n K N) none h W (constant ⟨2, ![n, N]⟩ .f32 0x00000000#32)) (broadcastTo ⟨2, ![n, N]⟩ b hb) (ix2 p q)
      = ∑ k : Fin K, h (ix2 p k) * W (ix2 k q) + b (ix2 (0 : Fin 1) q) := by
  have h1 := Cert.LibMatmul2d.matmul_plain_apply h W p q
  have h2 := broadcastTo_1b_ab_apply b hb p q
  show FloatOps.matmul (DotDims.plain n K N) none h W (constant ⟨2, ![n, N]⟩ .f32 0x00000000#32) (ix2 p q)
      + broadcastTo ⟨2, ![n, N]⟩ b hb (ix2 p q) = _
  rw [h1, h2]

/-- A linear layer on the host, its bias already one row, at `(p, q)`. -/
theorem hostLinear_apply {φ₁ φ₂ : FTy} (h : FVec Ideal ⟨2, ![n, K]⟩ φ₁) (W : FVec Ideal ⟨2, ![K, N]⟩ φ₂)
    (b : FVec Ideal ⟨2, ![1, N]⟩ .f32)
    (h₂ : (⟨2, ![1, N]⟩ : Shape).BroadcastsInDim ⟨2, ![n, N]⟩ (![0, 1] : Fin 2 → Fin (⟨2, ![n, N]⟩ : Shape).rank))
    (p : Fin n) (q : Fin N) :
    addf (Host.dotGeneral (DotDims.plain n K N) none h W) (broadcastInDim ⟨2, ![n, N]⟩ ![0, 1] h₂ b) (ix2 p q)
      = ∑ k : Fin K, h (ix2 p k) * W (ix2 k q) + b (ix2 (0 : Fin 1) q) := by
  have h1 := Cert.LibHostStack.dotGeneral_plain_apply h W p q
  have h2 := Cert.LibColumns.broadcastInDim_1b_ab_apply (a := n) b h₂ p q
  show Host.dotGeneral (DotDims.plain n K N) none h W (ix2 p q) + broadcastInDim ⟨2, ![n, N]⟩ ![0, 1] h₂ b (ix2 p q) = _
  rw [h1, h2]

/-- A vector reshaped to one row is the vector laid as one row by a broadcast. -/
theorem row_eq_cast {α : Type} (x : (⟨1, ![N]⟩ : Shape).Idx → α) (hc : (⟨1, ![N]⟩ : Shape).ShapeCasts ⟨2, ![1, N]⟩)
    (h₁ : (⟨1, ![N]⟩ : Shape).BroadcastsInDim ⟨2, ![1, N]⟩ (![1] : Fin 1 → Fin (⟨2, ![1, N]⟩ : Shape).rank)) :
    shapeCast ⟨2, ![1, N]⟩ x hc = broadcastInDim ⟨2, ![1, N]⟩ ![1] h₁ x := by
  funext j
  obtain ⟨u, q, rfl⟩ : ∃ (u : Fin 1) (q : Fin N), j = ix2 u q := ⟨j 0, j 1, eq_ix2 j⟩
  rw [Cert.LibColumns.broadcastInDim_b_1b_apply x h₁ u q]
  refine shapeCast_apply x hc _ _ ?_
  rw [Shape.rowMajor_val_two, Shape.rowMajor_val_one]
  have hu : u.val = 0 := by have := u.isLt; omega
  show q.val = u.val * N + q.val
  rw [hu, Nat.zero_mul, Nat.zero_add]

end Cert.LibLinear

end
-- ==== Proof.SpecAt.lean ====
/-
  The stages of the convolution read at an index, at the exact instance.

  Two stacked linear layers at `(r, q)` are `∑ k, (∑ l, X(r, l) · W₁(l, k) + b₁(0, k)) · W₂(k, q) + b₂(0, q)`; one layer is
  the inner sum alone; the leaky rectifier at an index chooses between the element and the slope times the element; the slope is one
  number, carried as a scalar array or as a 1×1 array.
-/
import proofs.«172786_j57234734187132_1_alg».proof.Proof.Spec
import proofs.«172786_j57234734187132_1_alg».proof.Proof.LibLinear

noncomputable section

namespace Cert.Hyper

open Idealize.ShloMosaic Idealize.ShloMosaic.ValueIdx Cert.ReferenceIdeal Cert.ReferenceIdeal.Facts₀
open scoped BigOperators

/-- Two stacked linear layers at `(r, q)`. -/
theorem linear2_apply (a0 : Arr S100000x256) (w1 : Arr S256x128) (b1 : Arr S1x128) (w2 : Arr S128x128) (b2 : Arr S1x128)
    (r : Fin 100000) (q : Fin 128) :
    linear2 a0 w1 b1 w2 b2 (ix2 r q)
      = ∑ k : Fin 128, (∑ l : Fin 256, a0 (ix2 r l) * w1 (ix2 l k) + b1 (ix2 (0 : Fin 1) k)) * w2 (ix2 k q) + b2 (ix2 (0 : Fin 1) q) := by
  unfold linear2
  refine (Cert.LibLinear.hostLinear_apply (n := 100000) (K := 128) (N := 128) _ _ _ _ r q).trans ?_
  refine congrArg₂ (· + ·) (Finset.sum_congr rfl fun k _ => congrArg₂ (· * ·) ?_ rfl) rfl
  exact Cert.LibLinear.hostLinear_apply (n := 100000) (K := 256) (N := 128) _ _ _ _ r k

/-- One linear layer on the hyperedges at `(r, q)`. -/
theorem linear1_apply (e : Arr S25000x128) (w : Arr S128x128) (b : Arr S1x128) (r : Fin 25000) (q : Fin 128) :
    linear1 e w b (ix2 r q) = ∑ k : Fin 128, e (ix2 r k) * w (ix2 k q) + b (ix2 (0 : Fin 1) q) := by
  unfold linear1
  exact Cert.LibLinear.hostLinear_apply (n := 25000) (K := 128) (N := 128) _ _ _ _ r q

/-- The leaky rectifier on the hyperedge features at an index. -/
theorem leaky25_apply (a : Arr S_) (H : Arr S25000x128) (i : S25000x128.Idx) :
    leaky25 a H i = Scalar.select (FloatOps.cmpf .oge (H i) (Ideal.ofBits .f32 0x00000000#32)) (H i) (a ix0 * H i) := by
  unfold leaky25
  have hz : broadcastInDim S25000x128 ![] bcast_S_S25000x128 (constant (F := Ideal) S_ .f32 0x00000000#32) i = Ideal.ofBits .f32 0x00000000#32 :=
    broadcastInDim_apply _ bcast_S_S25000x128 _ i ix0 (fun a => a.elim0)
  have ha : broadcastInDim S25000x128 ![] bcast_S_S25000x128 a i = a ix0 :=
    broadcastInDim_apply _ bcast_S_S25000x128 _ i ix0 (fun a => a.elim0)
  show Scalar.select (FloatOps.cmpf .oge (H i) (broadcastInDim S25000x128 ![] bcast_S_S25000x128 (constant (F := Ideal) S_ .f32 0x00000000#32) i)) (H i)
      (broadcastInDim S25000x128 ![] bcast_S_S25000x128 a i * H i) = _
  rw [hz, ha]

/-- The leaky rectifier on the node features at an index. -/
theorem leaky100_apply (a : Arr S_) (H : Arr S100000x128) (i : S100000x128.Idx) :
    leaky100 a H i = Scalar.select (FloatOps.cmpf .oge (H i) (Ideal.ofBits .f32 0x00000000#32)) (H i) (a ix0 * H i) := by
  unfold leaky100
  have hz : broadcastInDim S100000x128 ![] bcast_S_S100000x128 (constant (F := Ideal) S_ .f32 0x00000000#32) i = Ideal.ofBits .f32 0x00000000#32 :=
    broadcastInDim_apply _ bcast_S_S100000x128 _ i ix0 (fun a => a.elim0)
  have ha : broadcastInDim S100000x128 ![] bcast_S_S100000x128 a i = a ix0 :=
    broadcastInDim_apply _ bcast_S_S100000x128 _ i ix0 (fun a => a.elim0)
  show Scalar.select (FloatOps.cmpf .oge (H i) (broadcastInDim S100000x128 ![] bcast_S_S100000x128 (constant (F := Ideal) S_ .f32 0x00000000#32) i)) (H i)
      (broadcastInDim S100000x128 ![] bcast_S_S100000x128 a i * H i) = _
  rw [hz, ha]

/-- The slope, which the tiled program keeps as a 1×1 array, as a scalar array. -/
def slope (a : FVec Ideal ⟨2, ![1, 1]⟩ .f32) : Arr S_ := fun _ => extractAt ![0, 0] a (by decide)

/-- The slope read back from the scalar reshaped to 1×1 is the scalar. -/
theorem slope_cast (a : Arr S_) (h : S_.ShapeCasts ⟨2, ![1, 1]⟩) : slope (shapeCast ⟨2, ![1, 1]⟩ a h) = a := by
  haveI : Subsingleton S_.Idx := ⟨fun x y => funext fun d => d.elim0⟩
  funext k
  unfold slope extractAt shapeCast
  exact congrArg a (Subsingleton.elim _ _)

end Cert.Hyper

end
-- ==== Proof.Region0.lean ====
/-
  The first tiled region: twenty blocks of 5000 node rows each go through the two stacked linear layers, and the
  array the region leaves is the two layers applied to the whole node array.

  Row `r` of the result depends on row `r` of the node features alone (and on all of both weight matrices and bias
  rows), so the block a grid point writes back is the corresponding block of rows of the whole result; the twenty blocks
  cover the 100000 rows.
-/
import proofs.«172786_j57234734187132_1_alg».proof.Proof.Gen.KernelIdeal.Frame
import proofs.«172786_j57234734187132_1_alg».proof.Proof.SpecAt

set_option maxRecDepth 16384

noncomputable section

namespace Cert.Hyper.Region0

open Idealize.ShloMosaic Idealize.ShloMosaic.TcCoe Idealize.ShloMosaic.ValueIdx Idealize.SL.Sem
open Cert.KernelIdeal Cert.KernelIdeal.Gen
open Idealize.ShloMosaic.Pipeline (Dat Cfg Window)
open scoped BigOperators

theorem hz : (![0, 0] : Fin 2 → Nat) = fun _ => 0 := funext fun a => by fin_cases a <;> rfl

/-- What one grid point computes, at row `p` and column `q` of its block: the two layers on row `p` of its block of
    node features. -/
theorem pay_apply (x0 : Vec Ideal S5000x256 .f32) (x1 : Vec Ideal S256x128 .f32) (x2 : Vec Ideal S1x128 .f32)
    (x3 : Vec Ideal S128x128 .f32) (x4 : Vec Ideal S1x128 .f32) (p : Fin 5000) (q : Fin 128) :
    k0_pay1 x0 x1 x2 x3 x4 (ix2 p q)
      = ∑ k : Fin 128, (∑ l : Fin 256, x0 (ix2 p l) * x1 (ix2 l k) + x2 (ix2 (0 : Fin 1) k)) * x3 (ix2 k q) + x4 (ix2 (0 : Fin 1) q) := by
  unfold k0_pay1
  refine (Cert.LibLinear.vectorLinear_apply (n := 5000) (K := 128) (N := 128) _ _ _ _ p q).trans ?_
  refine congrArg₂ (· + ·) (Finset.sum_congr rfl fun k _ => congrArg₂ (· * ·) ?_ ?_) ?_
  · refine (Cert.LibLinear.vectorLinear_apply (n := 5000) (K := 256) (N := 128) _ _ _ _ p k).trans ?_
    refine congrArg₂ (· + ·) (Finset.sum_congr rfl fun l _ => congrArg₂ (· * ·) rfl ?_) ?_
    · exact congrFun (shapeCast_self x1 _) (ix2 l k)
    · exact congrFun (shapeCast_self x2 _) (ix2 (0 : Fin 1) k)
  · exact congrFun (shapeCast_self x3 _) (ix2 k q)
  · exact congrFun (shapeCast_self x4 _) (ix2 (0 : Fin 1) q)

/-- A block of rows of the result: if the block of node features `x0` is rows `T·5000 …` of `X`, what the point computes
    at `y` is the two layers of the whole arrays at the index `i` that `y` has in the whole result. -/
theorem block_eq (X : Cert.Hyper.Arr Cert.ReferenceIdeal.S100000x256) (w1 : Cert.Hyper.Arr Cert.ReferenceIdeal.S256x128)
    (b1 : Cert.Hyper.Arr Cert.ReferenceIdeal.S1x128) (w2 : Cert.Hyper.Arr Cert.ReferenceIdeal.S128x128)
    (b2 : Cert.Hyper.Arr Cert.ReferenceIdeal.S1x128) (x0 : Vec Ideal S5000x256 .f32) (T : ℕ)
    (h0 : ∀ (y : S5000x256.Idx) (i : S100000x256.Idx), (i 0).val = T * 5000 + (y 0).val → (i 1).val = (y 1).val → x0 y = X i)
    (y : S5000x128.Idx) (i : S100000x128.Idx) (hi0 : (i 0).val = T * 5000 + (y 0).val) (hi1 : (i 1).val = (y 1).val) :
    k0_pay1 x0 w1 b1 w2 b2 y = Cert.Hyper.linear2 X w1 b1 w2 b2 i := by
  obtain ⟨p, q, rfl⟩ : ∃ (p : Fin 5000) (q : Fin 128), y = ix2 p q := ⟨y 0, y 1, eq_ix2 y⟩
  obtain ⟨r, q', rfl⟩ : ∃ (r : Fin 100000) (q' : Fin 128), i = ix2 r q' := ⟨i 0, i 1, eq_ix2 i⟩
  have hq : q' = q := Fin.ext hi1
  subst hq
  refine (pay_apply x0 w1 b1 w2 b2 p q').trans ((Cert.Hyper.linear2_apply X w1 b1 w2 b2 r q').trans ?_).symm
  refine congrArg₂ (· + ·) (Finset.sum_congr rfl fun k _ => congrArg₂ (· * ·)
    (congrArg₂ (· + ·) (Finset.sum_congr rfl fun l _ => congrArg₂ (· * ·) (h0 (ix2 p l) (ix2 r l) hi0 rfl).symm rfl) rfl) rfl) rfl

variable (V : (c : Dev nD) → (b : Ref sig .tc) → Buf (Elt Ideal) ((c : Thread nD τ).loc b))

/-- The printed index maps over the twenty points: the node features' block moves with the result's, every other
    operand stays whole. -/
theorem idx_facts : ∀ t : Fin cfg0.N, win0_0.index t (0 : Fin 2) = win0_5.index t (0 : Fin 2)
    ∧ win0_0.index t (1 : Fin 2) = 0 ∧ win0_5.index t (1 : Fin 2) = 0 ∧ win0_5.index t (0 : Fin 2) ≤ 19
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- Every block of 5000 rows is some point's. -/
theorem idx_onto : ∀ q0 : Fin 20, ∃ t : Fin cfg0.N, win0_5.index t = ![q0.val, 0] :=
  (by decide +kernel : ∀ q0 : Fin 20, ∃ t : Fin grid0.N, win0_5.index t = ![q0.val, 0])

/-- The first weight matrix reaches every point whole. -/
theorem blk1 (c : Dev nD) (t : Fin cfg0.N) : iblk0 V c 1 t = V c main_v0 := by
  obtain ⟨-, -, -, -, e0, e1, -⟩ := idx_facts t
  funext y
  show V c main_v0 (((cfg0.win 1).blk t).view.emb y) = V c main_v0 y
  refine congrArg (V c main_v0) (funext fun a => Fin.ext ?_)
  match a with
  | ⟨0, _⟩ => show win0_1.index t (0 : Fin 2) * 256 + 1 * (y 0).val = (y 0).val; omega
  | ⟨1, _⟩ => show win0_1.index t (1 : Fin 2) * 128 + 1 * (y 1).val = (y 1).val; omega

theorem blk2 (c : Dev nD) (t : Fin cfg0.N) : iblk0 V c 2 t = V c main_v3 := by
  obtain ⟨-, -, -, -, -, -, e0, e1, -⟩ := idx_facts t
  funext y
  show V c main_v3 (((cfg0.win 2).blk t).view.emb y) = V c main_v3 y
  refine congrArg (V c main_v3) (funext fun a => Fin.ext ?_)
  match a with
  | ⟨0, _⟩ => show win0_2.index t (0 : Fin 2) * 1 + 1 * (y 0).val = (y 0).val; omega
  | ⟨1, _⟩ => show win0_2.index t (1 : Fin 2) * 128 + 1 * (y 1).val = (y 1).val; omega

theorem blk3 (c : Dev nD) (t : Fin cfg0.N) : iblk0 V c 3 t = V c main_v1 := by
  obtain ⟨-, -, -, -, -, -, -, -, e0, e1, -⟩ := idx_facts t
  funext y
  show V c main_v1 (((cfg0.win 3).blk t).view.emb y) = V c main_v1 y
  refine congrArg (V c main_v1) (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega

theorem blk4 (c : Dev nD) (t : Fin cfg0.N) : iblk0 V c 4 t = V c main_v4 := by
  obtain ⟨-, -, -, -, -, -, -, -, -, -, e0, e1⟩ := idx_facts t
  funext y
  show V c main_v4 (((cfg0.win 4).blk t).view.emb y) = V c main_v4 y
  refine congrArg (V c main_v4) (funext fun a => Fin.ext ?_)
  match a with
  | ⟨0, _⟩ => show win0_4.index t (0 : Fin 2) * 1 + 1 * (y 0).val = (y 0).val; omega
  | ⟨1, _⟩ => show win0_4.index t (1 : Fin 2) * 128 + 1 * (y 1).val = (y 1).val; omega

/-- The node features' block at point `t` is rows `t·5000 …` of the array. -/
theorem blk0 (c : Dev nD) (t : Fin cfg0.N) (y : S5000x256.Idx) (i : S100000x256.Idx)
    (hi0 : (i 0).val = win0_5.index t (0 : Fin 2) * 5000 + (y 0).val) (hi1 : (i 1).val = (y 1).val) :
    iblk0 V c 0 t y = V c main_arg0 i := by
  obtain ⟨e0, e1, -⟩ := idx_facts t
  show V c main_arg0 (((cfg0.win 0).blk t).view.emb y) = V c main_arg0 i
  refine congrArg (V c main_arg0) (funext fun a => Fin.ext ?_)
  match a with
  | ⟨0, _⟩ => show win0_0.index t (0 : Fin 2) * 5000 + 1 * (y 0).val = (i 0).val; omega
  | ⟨1, _⟩ => show win0_0.index t (1 : Fin 2) * 256 + 1 * (y 1).val = (i 1).val; omega

/-- What point `t` writes back is block `t` of the two layers applied to the arrays as the region finds them. -/
theorem flushed_eq (c : Dev nD) (t : Fin cfg0.N) :
    (dat0 V c).flushed 5 t = ((cfg0.win 5).blk t).view.read (Elt Ideal)
      (Cert.Hyper.linear2 (V c main_arg0) (V c main_v0) (V c main_v3) (V c main_v1) (V c main_v4)) := by
  show (cfg0.win 5).cut (grid0.coords t) ((dat0 V c).after 5 t) = _
  rw [after0_5]
  unfold out0_5
  rw [View.canon_unit_zero hz]
  simp only [View.ld_unit_zero (S := S5000x256) hz, View.ld_unit_zero (S := S256x128) hz, View.ld_unit_zero (S := S1x128) hz,
    View.ld_unit_zero (S := S128x128) hz]
  rw [blk1 V c t, blk2 V c t, blk3 V c t, blk4 V c t]
  obtain ⟨-, -, e2, -⟩ := idx_facts t
  funext j
  show k0_pay1 (iblk0 V c 0 t) (V c main_v0) (V c main_v3) (V c main_v1) (V c main_v4) j
    = Cert.Hyper.linear2 (V c main_arg0) (V c main_v0) (V c main_v3) (V c main_v1) (V c main_v4) (((cfg0.win 5).blk t).view.emb j)
  refine block_eq (V c main_arg0) (V c main_v0) (V c main_v3) (V c main_v1) (V c main_v4) (iblk0 V c 0 t) (win0_5.index t (0 : Fin 2))
    (fun y i h0 h1 => blk0 V c t y i h0 h1) j (((cfg0.win 5).blk t).view.emb j) ?_ ?_
  · show win0_5.index t (0 : Fin 2) * 5000 + 1 * (j 0).val = win0_5.index t (0 : Fin 2) * 5000 + (j 0).val; omega
  · show win0_5.index t (1 : Fin 2) * 128 + 1 * (j 1).val = (j 1).val; omega

/-- An index of the result is in point `t`'s block iff each coordinate is in the block's range on its axis. -/
theorem mem_blk (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v5).slice (win0_5.rect t)).set ↔ _
  rw [View.set_slice_whole, Rect.mem_set_unit]
  exact Iff.rfl

/-- The twenty blocks cover the result: row `r` is in block `r / 5000`. -/
theorem cover (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  obtain ⟨t, ht⟩ := idx_onto ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- The array the first region leaves: the two stacked linear layers of the arrays it was entered with. -/
theorem final (c : Dev nD) : (dat0 V c).arrAt 5 cfg0.N
    = Cert.Hyper.linear2 (V c main_arg0) (V c main_v0) (V c main_v3) (V c main_v1) (V c main_v4) :=
  (dat0 V c).arrAt_eq_of_cover 5 _ (fun t _ => flushed_eq V c t) cover

end Cert.Hyper.Region0

end
-- ==== Proof.Region1.lean ====
/-
  The second tiled region: five blocks of 5000 hyperedge rows each go through the leaky rectifier, and the rectified
  rows through one linear layer. The region leaves two arrays: the rectified hyperedge features, and their projection.

  Both depend, at row `r`, on row `r` of the summed messages alone, so each point writes back the corresponding block of
  rows of the whole result, and the five blocks cover the 25000 rows.
-/
import proofs.«172786_j57234734187132_1_alg».proof.Proof.Gen.KernelIdeal.Frame
import proofs.«172786_j57234734187132_1_alg».proof.Proof.SpecAt

set_option maxRecDepth 16384

noncomputable section

namespace Cert.Hyper.Region1

open Idealize.ShloMosaic Idealize.ShloMosaic.TcCoe Idealize.ShloMosaic.ValueIdx Idealize.SL.Sem
open Cert.KernelIdeal Cert.KernelIdeal.Gen
open Idealize.ShloMosaic.Pipeline (Dat Cfg Window)
open scoped BigOperators

theorem hz : (![0, 0] : Fin 2 → Nat) = fun _ => 0 := funext fun a => by fin_cases a <;> rfl

/-- The rectifier as a point computes it, at an index of its block. -/
theorem leaky_pay_apply (x0 : Vec Ideal S5000x128 .f32) (x1 : Vec Ideal S1x1 .f32) (y : S5000x128.Idx) :
    k1_pay1 x0 x1 y
      = Scalar.select (FloatOps.cmpf .oge (x0 y) (Ideal.ofBits .f32 0x00000000#32)) (x0 y) (Cert.Hyper.slope x1 ix0 * x0 y) := by
  unfold k1_pay1
  have hs : shapeCast S5000x128 x0 Cert.KernelIdeal.Facts₀.shapeCasts_S5000x128_S5000x128 = x0 := shapeCast_self x0 _
  show Scalar.select (FloatOps.cmpf .oge (shapeCast S5000x128 x0 Cert.KernelIdeal.Facts₀.shapeCasts_S5000x128_S5000x128 y) (Ideal.ofBits .f32 0x00000000#32))
      (shapeCast S5000x128 x0 Cert.KernelIdeal.Facts₀.shapeCasts_S5000x128_S5000x128 y)
      (Cert.Hyper.slope x1 ix0 * shapeCast S5000x128 x0 Cert.KernelIdeal.Facts₀.shapeCasts_S5000x128_S5000x128 y) = _
  rw [hs]

/-- A block of rows of the rectified features: if `x0` is rows `T·5000 …` of `H`, the point's value at `y` is the
    rectifier of the whole array at the index `i` that `y` has there. -/
theorem block4_eq (H : Cert.Hyper.Arr Cert.ReferenceIdeal.S25000x128) (x0 : Vec Ideal S5000x128 .f32) (x1 : Vec Ideal S1x1 .f32)
    (y : S5000x128.Idx) (i : S25000x128.Idx) (h0 : x0 y = H i) :
    k1_pay1 x0 x1 y = Cert.Hyper.leaky25 (Cert.Hyper.slope x1) H i := by
  rw [leaky_pay_apply, Cert.Hyper.leaky25_apply, h0]

/-- The projection as a point computes it, at row `p` and column `q` of its block. -/
theorem pay2_apply (x0 : Vec Ideal S5000x128 .f32) (x1 : Vec Ideal S1x1 .f32) (x2 : Vec Ideal S128x128 .f32)
    (x3 : Vec Ideal S1x128 .f32) (p : Fin 5000) (q : Fin 128) :
    k1_pay2 x0 x1 x2 x3 (ix2 p q) = ∑ k : Fin 128, k1_pay1 x0 x1 (ix2 p k) * x2 (ix2 k q) + x3 (ix2 (0 : Fin 1) q) := by
  unfold k1_pay2
  refine (Cert.LibLinear.vectorLinear_apply (n := 5000) (K := 128) (N := 128) _ _ _ _ p q).trans ?_
  refine congrArg₂ (· + ·) (Finset.sum_congr rfl fun k _ => congrArg₂ (· * ·) rfl ?_) ?_
  · exact congrFun (shapeCast_self x2 _) (ix2 k q)
  · exact congrFun (shapeCast_self x3 _) (ix2 (0 : Fin 1) q)

/-- A block of rows of the projection. -/
theorem block5_eq (H : Cert.Hyper.Arr Cert.ReferenceIdeal.S25000x128) (w : Cert.Hyper.Arr Cert.ReferenceIdeal.S128x128)
    (b : Cert.Hyper.Arr Cert.ReferenceIdeal.S1x128) (x0 : Vec Ideal S5000x128 .f32) (x1 : Vec Ideal S1x1 .f32) (T : ℕ)
    (h0 : ∀ (y : S5000x128.Idx) (i : S25000x128.Idx), (i 0).val = T * 5000 + (y 0).val → (i 1).val = (y 1).val → x0 y = H i)
    (y : S5000x128.Idx) (i : S25000x128.Idx) (hi0 : (i 0).val = T * 5000 + (y 0).val) (hi1 : (i 1).val = (y 1).val) :
    k1_pay2 x0 x1 w b y = Cert.Hyper.linear1 (Cert.Hyper.leaky25 (Cert.Hyper.slope x1) H) w b i := by
  obtain ⟨p, q, rfl⟩ : ∃ (p : Fin 5000) (q : Fin 128), y = ix2 p q := ⟨y 0, y 1, eq_ix2 y⟩
  obtain ⟨r, q', rfl⟩ : ∃ (r : Fin 25000) (q' : Fin 128), i = ix2 r q' := ⟨i 0, i 1, eq_ix2 i⟩
  have hq : q' = q := Fin.ext hi1
  subst hq
  refine (pay2_apply x0 x1 w b p q').trans ((Cert.Hyper.linear1_apply _ w b r q').trans ?_).symm
  refine congrArg₂ (· + ·) (Finset.sum_congr rfl fun k _ => congrArg₂ (· * ·)
    (block4_eq H x0 x1 (ix2 p k) (ix2 r k) (h0 (ix2 p k) (ix2 r k) hi0 rfl)).symm rfl) rfl

variable (V : (c : Dev nD) → (b : Ref sig .tc) → Buf (Elt Ideal) ((c : Thread nD τ).loc b))

/-- The printed index maps over the five points: the messages' block moves with both results' blocks, every other
    operand stays whole. -/
theorem idx_facts : ∀ t : Fin cfg1.N, win1_0.index t (0 : Fin 2) = win1_4.index t (0 : Fin 2)
    ∧ win1_5.index t (0 : Fin 2) = win1_4.index t (0 : Fin 2)
    ∧ win1_0.index t (1 : Fin 2) = 0 ∧ win1_4.index t (1 : Fin 2) = 0 ∧ win1_5.index t (1 : Fin 2) = 0
    ∧ win1_4.index t (0 : Fin 2) ≤ 4
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0 :=
  (by decide +kernel : ∀ t : Fin grid1.N, _)

/-- Every block of 5000 rows is some point's. -/
theorem idx_onto : ∀ q0 : Fin 5, ∃ t : Fin cfg1.N, win1_4.index t = ![q0.val, 0] ∧ win1_5.index t = ![q0.val, 0] :=
  (by decide +kernel : ∀ q0 : Fin 5, ∃ t : Fin grid1.N, win1_4.index t = ![q0.val, 0] ∧ win1_5.index t = ![q0.val, 0])

/-- The slope, the weight matrix and the bias row reach every point whole. -/
theorem blk1 (c : Dev nD) (t : Fin cfg1.N) : iblk1 V c 1 t = V c main_v33 := by
  have e := idx_facts t
  funext y
  show V c main_v33 (((cfg1.win 1).blk t).view.emb y) = V c main_v33 y
  refine congrArg (V c main_v33) (funext fun a => Fin.ext ?_)
  match a with
  | ⟨0, _⟩ => show win1_1.index t (0 : Fin 2) * 1 + 1 * (y 0).val = (y 0).val; omega
  | ⟨1, _⟩ => show win1_1.index t (1 : Fin 2) * 1 + 1 * (y 1).val = (y 1).val; omega

theorem blk2 (c : Dev nD) (t : Fin cfg1.N) : iblk1 V c 2 t = V c main_v2 := by
  have e := idx_facts t
  funext y
  show V c main_v2 (((cfg1.win 2).blk t).view.emb y) = V c main_v2 y
  refine congrArg (V c main_v2) (funext fun a => Fin.ext ?_)
  match a with
  | ⟨0, _⟩ => show win1_2.index t (0 : Fin 2) * 128 + 1 * (y 0).val = (y 0).val; omega
  | ⟨1, _⟩ => show win1_2.index t (1 : Fin 2) * 128 + 1 * (y 1).val = (y 1).val; omega

theorem blk3 (c : Dev nD) (t : Fin cfg1.N) : iblk1 V c 3 t = V c main_v34 := by
  have e := idx_facts t
  funext y
  show V c main_v34 (((cfg1.win 3).blk t).view.emb y) = V c main_v34 y
  refine congrArg (V c main_v34) (funext fun a => Fin.ext ?_)
  match a with
  | ⟨0, _⟩ => show win1_3.index t (0 : Fin 2) * 1 + 1 * (y 0).val = (y 0).val; omega
  | ⟨1, _⟩ => show win1_3.index t (1 : Fin 2) * 128 + 1 * (y 1).val = (y 1).val; omega

/-- The messages' block at point `t` is rows `t·5000 …` of the array. -/
theorem blk0 (c : Dev nD) (t : Fin cfg1.N) (y : S5000x128.Idx) (i : S25000x128.Idx)
    (hi0 : (i 0).val = win1_4.index t (0 : Fin 2) * 5000 + (y 0).val) (hi1 : (i 1).val = (y 1).val) :
    iblk1 V c 0 t y = V c main_v32 i := by
  have e := idx_facts t
  show V c main_v32 (((cfg1.win 0).blk t).view.emb y) = V c main_v32 i
  refine congrArg (V c main_v32) (funext fun a => Fin.ext ?_)
  match a with
  | ⟨0, _⟩ => show win1_0.index t (0 : Fin 2) * 5000 + 1 * (y 0).val = (i 0).val; omega
  | ⟨1, _⟩ => show win1_0.index t (1 : Fin 2) * 128 + 1 * (y 1).val = (i 1).val; omega

/-- What point `t` writes back to the first result is block `t` of the rectified messages. -/
theorem flushed4_eq (c : Dev nD) (t : Fin cfg1.N) :
    (dat1 V c).flushed 4 t = ((cfg1.win 4).blk t).view.read (Elt Ideal)
      (Cert.Hyper.leaky25 (Cert.Hyper.slope (V c main_v33)) (V c main_v32)) := by
  show (cfg1.win 4).cut (grid1.coords t) ((dat1 V c).after 4 t) = _
  rw [after1_4]
  unfold out1_4
  rw [View.canon_unit_zero hz]
  simp only [View.ld_unit_zero (S := S5000x128) hz, View.ld_unit_zero (S := S1x1) hz]
  rw [blk1 V c t]
  have e := idx_facts t
  funext j
  show k1_pay1 (iblk1 V c 0 t) (V c main_v33) j
    = Cert.Hyper.leaky25 (Cert.Hyper.slope (V c main_v33)) (V c main_v32) (((cfg1.win 4).blk t).view.emb j)
  refine block4_eq (V c main_v32) (iblk1 V c 0 t) (V c main_v33) j (((cfg1.win 4).blk t).view.emb j) (blk0 V c t j _ ?_ ?_)
  · show win1_4.index t (0 : Fin 2) * 5000 + 1 * (j 0).val = win1_4.index t (0 : Fin 2) * 5000 + (j 0).val; omega
  · show win1_4.index t (1 : Fin 2) * 128 + 1 * (j 1).val = (j 1).val; omega

/-- What point `t` writes back to the second result is block `t` of the projection of the rectified messages. -/
theorem flushed5_eq (c : Dev nD) (t : Fin cfg1.N) :
    (dat1 V c).flushed 5 t = ((cfg1.win 5).blk t).view.read (Elt Ideal)
      (Cert.Hyper.linear1 (Cert.Hyper.leaky25 (Cert.Hyper.slope (V c main_v33)) (V c main_v32)) (V c main_v2) (V c main_v34)) := by
  show (cfg1.win 5).cut (grid1.coords t) ((dat1 V c).after 5 t) = _
  rw [after1_5]
  unfold out1_5
  rw [View.canon_unit_zero hz]
  simp only [View.ld_unit_zero (S := S5000x128) hz, View.ld_unit_zero (S := S1x1) hz, View.ld_unit_zero (S := S128x128) hz,
    View.ld_unit_zero (S := S1x128) hz]
  rw [blk1 V c t, blk2 V c t, blk3 V c t]
  have e := idx_facts t
  funext j
  show k1_pay2 (iblk1 V c 0 t) (V c main_v33) (V c main_v2) (V c main_v34) j
    = Cert.Hyper.linear1 (Cert.Hyper.leaky25 (Cert.Hyper.slope (V c main_v33)) (V c main_v32)) (V c main_v2) (V c main_v34)
        (((cfg1.win 5).blk t).view.emb j)
  refine block5_eq (V c main_v32) (V c main_v2) (V c main_v34) (iblk1 V c 0 t) (V c main_v33) (win1_4.index t (0 : Fin 2))
    (fun y i h0 h1 => blk0 V c t y i h0 h1) j (((cfg1.win 5).blk t).view.emb j) ?_ ?_
  · show win1_5.index t (0 : Fin 2) * 5000 + 1 * (j 0).val = win1_4.index t (0 : Fin 2) * 5000 + (j 0).val; omega
  · show win1_5.index t (1 : Fin 2) * 128 + 1 * (j 1).val = (j 1).val; omega

/-- An index of a result is in point `t`'s block iff each coordinate is in the block's range on its axis. -/
theorem mem_blk4 (t : Fin cfg1.N) (i : S25000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v35_0).slice (win1_4.rect t)).set ↔ _
  rw [View.set_slice_whole, Rect.mem_set_unit]
  exact Iff.rfl

theorem mem_blk5 (t : Fin cfg1.N) (i : S25000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v35_1).slice (win1_5.rect t)).set ↔ _
  rw [View.set_slice_whole, Rect.mem_set_unit]
  exact Iff.rfl

/-- The five blocks cover each result: row `r` is in block `r / 5000`. -/
theorem cover4 (i : S25000x128.Idx) : ∃ t : Fin cfg1.N, (cfg1.win 4).flush t = true ∧ i ∈ ((cfg1.win 4).blk t).view.set := by
  have hi0 : (i 0).val < 25000 := (i 0).isLt
  have hi1 : (i 1).val < 128 := (i 1).isLt
  obtain ⟨t, ht, -⟩ := idx_onto ⟨(i 0).val / 5000, by omega⟩
  have q0 : win1_4.index t (0 : Fin 2) = (i 0).val / 5000 := congrFun ht 0
  have q1 : win1_4.index t (1 : Fin 2) = 0 := congrFun ht 1
  refine ⟨t, flush1_4 t, ?_⟩
  rw [mem_blk4]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 128 ≤ (i 1).val ∧ (i 1).val < win1_4.index t (1 : Fin 2) * 128 + 128; omega

theorem cover5 (i : S25000x128.Idx) : ∃ t : Fin cfg1.N, (cfg1.win 5).flush t = true ∧ i ∈ ((cfg1.win 5).blk t).view.set := by
  have hi0 : (i 0).val < 25000 := (i 0).isLt
  have hi1 : (i 1).val < 128 := (i 1).isLt
  obtain ⟨t, -, ht⟩ := idx_onto ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_blk5]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- The first array the region leaves: the rectified messages. -/
theorem final4 (c : Dev nD) : (dat1 V c).arrAt 4 cfg1.N
    = Cert.Hyper.leaky25 (Cert.Hyper.slope (V c main_v33)) (V c main_v32) :=
  (dat1 V c).arrAt_eq_of_cover 4 _ (fun t _ => flushed4_eq V c t) cover4

/-- The second: their projection. -/
theorem final5 (c : Dev nD) : (dat1 V c).arrAt 5 cfg1.N
    = Cert.Hyper.linear1 (Cert.Hyper.leaky25 (Cert.Hyper.slope (V c main_v33)) (V c main_v32)) (V c main_v2) (V c main_v34) :=
  (dat1 V c).arrAt_eq_of_cover 5 _ (fun t _ => flushed5_eq V c t) cover5

end Cert.Hyper.Region1

end
-- ==== Proof.Region2.lean ====
/-
  The third tiled region: ten blocks of 10000 node rows each go through the leaky rectifier; the array the region
  leaves is the rectifier of the whole array of summed messages.
-/
import proofs.«172786_j57234734187132_1_alg».proof.Proof.Gen.KernelIdeal.Frame
import proofs.«172786_j57234734187132_1_alg».proof.Proof.SpecAt

set_option maxRecDepth 16384

noncomputable section

namespace Cert.Hyper.Region2

open Idealize.ShloMosaic Idealize.ShloMosaic.TcCoe Idealize.ShloMosaic.ValueIdx Idealize.SL.Sem
open Cert.KernelIdeal Cert.KernelIdeal.Gen
open Idealize.ShloMosaic.Pipeline (Dat Cfg Window)

theorem hz : (![0, 0] : Fin 2 → Nat) = fun _ => 0 := funext fun a => by fin_cases a <;> rfl

/-- The rectifier as a point computes it, at an index of its block. -/
theorem leaky_pay_apply (x0 : Vec Ideal S10000x128 .f32) (x1 : Vec Ideal S1x1 .f32) (y : S10000x128.Idx) :
    k2_pay1 x0 x1 y
      = Scalar.select (FloatOps.cmpf .oge (x0 y) (Ideal.ofBits .f32 0x00000000#32)) (x0 y) (Cert.Hyper.slope x1 ix0 * x0 y) := by
  unfold k2_pay1
  have hs : shapeCast S10000x128 x0 Cert.KernelIdeal.Facts₀.shapeCasts_S10000x128_S10000x128 = x0 := shapeCast_self x0 _
  show Scalar.select (FloatOps.cmpf .oge (shapeCast S10000x128 x0 Cert.KernelIdeal.Facts₀.shapeCasts_S10000x128_S10000x128 y) (Ideal.ofBits .f32 0x00000000#32))
      (shapeCast S10000x128 x0 Cert.KernelIdeal.Facts₀.shapeCasts_S10000x128_S10000x128 y)
      (Cert.Hyper.slope x1 ix0 * shapeCast S10000x128 x0 Cert.KernelIdeal.Facts₀.shapeCasts_S10000x128_S10000x128 y) = _
  rw [hs]

/-- A block of rows of the rectified features. -/
theorem block_eq (H : Cert.Hyper.Arr Cert.ReferenceIdeal.S100000x128) (x0 : Vec Ideal S10000x128 .f32) (x1 : Vec Ideal S1x1 .f32)
    (y : S10000x128.Idx) (i : S100000x128.Idx) (h0 : x0 y = H i) :
    k2_pay1 x0 x1 y = Cert.Hyper.leaky100 (Cert.Hyper.slope x1) H i := by
  rw [leaky_pay_apply, Cert.Hyper.leaky100_apply, h0]

variable (V : (c : Dev nD) → (b : Ref sig .tc) → Buf (Elt Ideal) ((c : Thread nD τ).loc b))

/-- The printed index maps over the ten points: the messages' block moves with the result's, the slope stays whole. -/
theorem idx_facts : ∀ t : Fin cfg2.N, win2_0.index t (0 : Fin 2) = win2_2.index t (0 : Fin 2)
    ∧ win2_0.index t (1 : Fin 2) = 0 ∧ win2_2.index t (1 : Fin 2) = 0 ∧ win2_2.index t (0 : Fin 2) ≤ 9
    ∧ win2_1.index t (0 : Fin 2) = 0 ∧ win2_1.index t (1 : Fin 2) = 0 :=
  (by decide +kernel : ∀ t : Fin grid2.N, _)

/-- Every block of 10000 rows is some point's. -/
theorem idx_onto : ∀ q0 : Fin 10, ∃ t : Fin cfg2.N, win2_2.index t = ![q0.val, 0] :=
  (by decide +kernel : ∀ q0 : Fin 10, ∃ t : Fin grid2.N, win2_2.index t = ![q0.val, 0])

/-- The slope reaches every point whole. -/
theorem blk1 (c : Dev nD) (t : Fin cfg2.N) : iblk2 V c 1 t = V c main_v63 := by
  have e := idx_facts t
  funext y
  show V c main_v63 (((cfg2.win 1).blk t).view.emb y) = V c main_v63 y
  refine congrArg (V c main_v63) (funext fun a => Fin.ext ?_)
  match a with
  | ⟨0, _⟩ => show win2_1.index t (0 : Fin 2) * 1 + 1 * (y 0).val = (y 0).val; omega
  | ⟨1, _⟩ => show win2_1.index t (1 : Fin 2) * 1 + 1 * (y 1).val = (y 1).val; omega

/-- The messages' block at point `t` is rows `t·10000 …` of the array. -/
theorem blk0 (c : Dev nD) (t : Fin cfg2.N) (y : S10000x128.Idx) (i : S100000x128.Idx)
    (hi0 : (i 0).val = win2_2.index t (0 : Fin 2) * 10000 + (y 0).val) (hi1 : (i 1).val = (y 1).val) :
    iblk2 V c 0 t y = V c main_v62 i := by
  have e := idx_facts t
  show V c main_v62 (((cfg2.win 0).blk t).view.emb y) = V c main_v62 i
  refine congrArg (V c main_v62) (funext fun a => Fin.ext ?_)
  match a with
  | ⟨0, _⟩ => show win2_0.index t (0 : Fin 2) * 10000 + 1 * (y 0).val = (i 0).val; omega
  | ⟨1, _⟩ => show win2_0.index t (1 : Fin 2) * 128 + 1 * (y 1).val = (i 1).val; omega

/-- What point `t` writes back is block `t` of the rectified messages. -/
theorem flushed_eq (c : Dev nD) (t : Fin cfg2.N) :
    (dat2 V c).flushed 2 t = ((cfg2.win 2).blk t).view.read (Elt Ideal)
      (Cert.Hyper.leaky100 (Cert.Hyper.slope (V c main_v63)) (V c main_v62)) := by
  show (cfg2.win 2).cut (grid2.coords t) ((dat2 V c).after 2 t) = _
  rw [after2_2]
  unfold out2_2
  rw [View.canon_unit_zero hz]
  simp only [View.ld_unit_zero (S := S10000x128) hz, View.ld_unit_zero (S := S1x1) hz]
  rw [blk1 V c t]
  have e := idx_facts t
  funext j
  show k2_pay1 (iblk2 V c 0 t) (V c main_v63) j
    = Cert.Hyper.leaky100 (Cert.Hyper.slope (V c main_v63)) (V c main_v62) (((cfg2.win 2).blk t).view.emb j)
  refine block_eq (V c main_v62) (iblk2 V c 0 t) (V c main_v63) j (((cfg2.win 2).blk t).view.emb j) (blk0 V c t j _ ?_ ?_)
  · show win2_2.index t (0 : Fin 2) * 10000 + 1 * (j 0).val = win2_2.index t (0 : Fin 2) * 10000 + (j 0).val; omega
  · show win2_2.index t (1 : Fin 2) * 128 + 1 * (j 1).val = (j 1).val; omega

/-- An index of the result is in point `t`'s block iff each coordinate is in the block's range on its axis. -/
theorem mem_blk (t : Fin cfg2.N) (i : S100000x128.Idx) :
    i ∈ ((cfg2.win 2).blk t).view.set ↔ ∀ a : Fin 2, win2_2.index t a * S10000x128.size a ≤ (i a).val ∧ (i a).val < win2_2.index t a * S10000x128.size a + S10000x128.size a := by
  show i ∈ ((View.whole main_v64).slice (win2_2.rect t)).set ↔ _
  rw [View.set_slice_whole, Rect.mem_set_unit]
  exact Iff.rfl

/-- The ten blocks cover the result: row `r` is in block `r / 10000`. -/
theorem cover (i : S100000x128.Idx) : ∃ t : Fin cfg2.N, (cfg2.win 2).flush t = true ∧ i ∈ ((cfg2.win 2).blk t).view.set := by
  have hi0 : (i 0).val < 100000 := (i 0).isLt
  have hi1 : (i 1).val < 128 := (i 1).isLt
  obtain ⟨t, ht⟩ := idx_onto ⟨(i 0).val / 10000, by omega⟩
  have q0 : win2_2.index t (0 : Fin 2) = (i 0).val / 10000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 128 ≤ (i 1).val ∧ (i 1).val < win2_2.index t (1 : Fin 2) * 128 + 128; omega

/-- The array the third region leaves: the rectified messages. -/
theorem final (c : Dev nD) : (dat2 V c).arrAt 2 cfg2.N
    = Cert.Hyper.leaky100 (Cert.Hyper.slope (V c main_v63)) (V c main_v62) :=
  (dat2 V c).arrAt_eq_of_cover 2 _ (fun t _ => flushed_eq V c t) cover

end Cert.Hyper.Region2

end
-- ==== Proof.KernelValue.lean ====
/-
  The tiled program's two results as the convolution of its arguments.

  Each region leaves a stage of the convolution applied to the arrays it was entered with; the host operations between
  the regions are the message-passing stages; the weights reach the regions transposed and each bias as one row, by a
  reshape where the convolution's statement lays it by a broadcast — one array either way.
-/
import proofs.«172786_j57234734187132_1_alg».proof.Proof.Boundaries
import proofs.«172786_j57234734187132_1_alg».proof.Proof.Region0
import proofs.«172786_j57234734187132_1_alg».proof.Proof.Region1
import proofs.«172786_j57234734187132_1_alg».proof.Proof.Region2

set_option maxRecDepth 16384

noncomputable section

namespace Cert.Hyper.Kernel

open Idealize.ShloMosaic Idealize.ShloMosaic.TcCoe Idealize.SL.Sem
open Cert.KernelIdeal Cert.KernelIdeal.Gen Cert.Hyper.Boundaries

variable (m : (ℓ : Loc nD τ sig) → Buf (Elt Ideal) ℓ) (ρ : Dev nD → PrngReg) (c : Dev nD)

/-- A bias reshaped to one row is the bias laid as one row. -/
theorem cast_row (b : Cert.Hyper.Arr Cert.ReferenceIdeal.S128) :
    shapeCast S1x128 b Cert.KernelIdeal.Facts₀.shapeCasts_S128_S1x128 = Cert.Hyper.row b :=
  Cert.LibLinear.row_eq_cast (N := 128) b _ _

/-- The first region leaves the two stacked linear layers of the node features. -/
theorem projected : (dat0 (V1 m ρ) c).arrAt 5 cfg0.N
    = Cert.Hyper.linear2 (m ((c.tc : Thread nD τ).loc main_arg0))
        (transpose Cert.ReferenceIdeal.S256x128 [1, 0] (m ((c.tc : Thread nD τ).loc main_arg6)) Cert.ReferenceIdeal.Facts₀.transposes_S128x256_S256x128_1_0) (Cert.Hyper.row (m ((c.tc : Thread nD τ).loc main_arg7)))
        (transpose Cert.ReferenceIdeal.S128x128 [1, 0] (m ((c.tc : Thread nD τ).loc main_arg8)) Cert.ReferenceIdeal.Facts₀.transposes_S128x128_S128x128_1_0) (Cert.Hyper.row (m ((c.tc : Thread nD τ).loc main_arg9))) := by
  refine (Cert.Hyper.Region0.final (V1 m ρ) c).trans ?_
  rw [entry0_x m ρ c, entry0_w1 m ρ c, entry0_b1 m ρ c, entry0_w2 m ρ c, entry0_b2 m ρ c, cast_row, cast_row]

/-- The slope reaches the second region as the argument's one number. -/
theorem slope1 : Cert.Hyper.slope (V3 m ρ c main_v33) = (m ((c.tc : Thread nD τ).loc main_arg12)) := by
  rw [entry1_a m ρ c]
  exact Cert.Hyper.slope_cast _ _

theorem slope2 : Cert.Hyper.slope (V5 m ρ c main_v63) = (m ((c.tc : Thread nD τ).loc main_arg12)) := by
  rw [entry2_a m ρ c]
  exact Cert.Hyper.slope_cast _ _

/-- The second region's first result: the hyperedge features of the convolution. -/
theorem hedges : (dat1 (V3 m ρ) c).arrAt 4 cfg1.N = Cert.Hyper.hedgeOut (m ((c.tc : Thread nD τ).loc main_arg0)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg2)) (m ((c.tc : Thread nD τ).loc main_arg5)) (m ((c.tc : Thread nD τ).loc main_arg12)) (m ((c.tc : Thread nD τ).loc main_arg13)) (m ((c.tc : Thread nD τ).loc main_arg14)) := by
  refine (Cert.Hyper.Region1.final4 (V3 m ρ) c).trans ?_
  rw [slope1 m ρ c, entry1_h m ρ c, projected m ρ c]
  rfl

/-- The second region's second result: the projection of those features. -/
theorem projectedHedges : (dat1 (V3 m ρ) c).arrAt 5 cfg1.N
    = Cert.Hyper.linear1 (Cert.Hyper.hedgeOut (m ((c.tc : Thread nD τ).loc main_arg0)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg2)) (m ((c.tc : Thread nD τ).loc main_arg5)) (m ((c.tc : Thread nD τ).loc main_arg12)) (m ((c.tc : Thread nD τ).loc main_arg13)) (m ((c.tc : Thread nD τ).loc main_arg14)))
        (transpose Cert.ReferenceIdeal.S128x128 [1, 0] (m ((c.tc : Thread nD τ).loc main_arg10)) Cert.ReferenceIdeal.Facts₀.transposes_S128x128_S128x128_1_0) (Cert.Hyper.row (m ((c.tc : Thread nD τ).loc main_arg11))) := by
  refine (Cert.Hyper.Region1.final5 (V3 m ρ) c).trans ?_
  rw [slope1 m ρ c, entry1_h m ρ c, projected m ρ c, entry1_w m ρ c, entry1_b m ρ c, cast_row]
  rfl

/-- The third region's result: the node features of the convolution. -/
theorem nodes : (dat2 (V5 m ρ) c).arrAt 2 cfg2.N
    = Cert.Hyper.nodeOut (Cert.Hyper.hedgeOut (m ((c.tc : Thread nD τ).loc main_arg0)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg2)) (m ((c.tc : Thread nD τ).loc main_arg5)) (m ((c.tc : Thread nD τ).loc main_arg12)) (m ((c.tc : Thread nD τ).loc main_arg13)) (m ((c.tc : Thread nD τ).loc main_arg14))) (m ((c.tc : Thread nD τ).loc main_arg10)) (m ((c.tc : Thread nD τ).loc main_arg11)) (m ((c.tc : Thread nD τ).loc main_arg4)) (m ((c.tc : Thread nD τ).loc main_arg3)) (m ((c.tc : Thread nD τ).loc main_arg12)) (m ((c.tc : Thread nD τ).loc main_arg13)) (m ((c.tc : Thread nD τ).loc main_arg14)) := by
  refine (Cert.Hyper.Region2.final (V5 m ρ) c).trans ?_
  rw [slope2 m ρ c, entry2_h m ρ c, projectedHedges m ρ c]
  rfl

/-- Every weakly fair execution of the tiled program ends with its two results at the convolution of its arguments,
    the arguments unchanged. -/
theorem run : θ_run (defs (F := Ideal)) (onTc (τ := τ) (main (F := Ideal))) ⟨m, fun _ => 0, ρ⟩ (fun r => ∀ c : Dev nD,
      r.2.mem ((c.tc : Thread nD τ).loc main_v64) = Cert.Hyper.nodeOut (Cert.Hyper.hedgeOut (m ((c.tc : Thread nD τ).loc main_arg0)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg2)) (m ((c.tc : Thread nD τ).loc main_arg5)) (m ((c.tc : Thread nD τ).loc main_arg12)) (m ((c.tc : Thread nD τ).loc main_arg13)) (m ((c.tc : Thread nD τ).loc main_arg14))) (m ((c.tc : Thread nD τ).loc main_arg10)) (m ((c.tc : Thread nD τ).loc main_arg11)) (m ((c.tc : Thread nD τ).loc main_arg4)) (m ((c.tc : Thread nD τ).loc main_arg3)) (m ((c.tc : Thread nD τ).loc main_arg12)) (m ((c.tc : Thread nD τ).loc main_arg13)) (m ((c.tc : Thread nD τ).loc main_arg14))
      ∧ r.2.mem ((c.tc : Thread nD τ).loc main_v35_0) = Cert.Hyper.hedgeOut (m ((c.tc : Thread nD τ).loc main_arg0)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg2)) (m ((c.tc : Thread nD τ).loc main_arg5)) (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨(h c).1.trans (nodes m ρ c), (h c).2.1.trans (hedges m ρ c), (h c).2.2⟩) (run_all m ρ)

end Cert.Hyper.Kernel

end
-- ==== Proof.ReferenceValue.lean ====
/-
  The reference, read as the composition of the stages: its two results are the hyperedge features and the node
  features of the convolution, term for term.
-/
import proofs.«172786_j57234734187132_1_alg».proof.Proof.Gen.ReferenceIdeal.Run
import proofs.«172786_j57234734187132_1_alg».proof.Proof.Spec

set_option maxRecDepth 16384

noncomputable section

namespace Cert.Hyper.Reference

open Idealize.ShloMosaic Idealize.ShloMosaic.TcCoe Idealize.SL.Sem
open Cert.ReferenceIdeal Cert.ReferenceIdeal.Value

variable (m : (ℓ : Loc nD τ sig) → Buf (Elt Ideal) ℓ) (c : Dev nD)

/-- The reference's second result is the hyperedge features. -/
theorem hedges_eq : res_main_v41 (F := Ideal) m c
    = Cert.Hyper.hedgeOut (m ((c.tc : Thread nD τ).loc main_arg0)) (m ((c.tc : Thread nD τ).loc main_arg6)) (m ((c.tc : Thread nD τ).loc main_arg7))
        (m ((c.tc : Thread nD τ).loc main_arg8)) (m ((c.tc : Thread nD τ).loc main_arg9)) (m ((c.tc : Thread nD τ).loc main_arg2))
        (m ((c.tc : Thread nD τ).loc main_arg5)) (m ((c.tc : Thread nD τ).loc main_arg12)) (m ((c.tc : Thread nD τ).loc main_arg13))
        (m ((c.tc : Thread nD τ).loc main_arg14)) := by
  unfold res_main_v41 Cert.Hyper.hedgeOut Cert.Hyper.leaky25 Cert.Hyper.toHedges Cert.Hyper.linear2 Cert.Hyper.row
  rfl

/-- The reference's first result is the node features, computed from its own hyperedge features. -/
theorem nodes_eq : res_main_v78 (F := Ideal) m c
    = Cert.Hyper.nodeOut (res_main_v41 (F := Ideal) m c) (m ((c.tc : Thread nD τ).loc main_arg10)) (m ((c.tc : Thread nD τ).loc main_arg11))
        (m ((c.tc : Thread nD τ).loc main_arg4)) (m ((c.tc : Thread nD τ).loc main_arg3)) (m ((c.tc : Thread nD τ).loc main_arg12))
        (m ((c.tc : Thread nD τ).loc main_arg13)) (m ((c.tc : Thread nD τ).loc main_arg14)) := by
  unfold res_main_v78 res_main_v41 Cert.Hyper.nodeOut Cert.Hyper.leaky100 Cert.Hyper.toNodes Cert.Hyper.linear1 Cert.Hyper.row
  rfl

end Cert.Hyper.Reference

end
-- ==== Proof.lean ====
/-
  A hypergraph convolution in three tiled regions against the same convolution written as plain array operations:
  the two programs end with equal results on the extended reals.

  Node features go through two stacked linear layers; every incidence pair (node, hyperedge) carries the node's row,
  scaled by a quotient of two per-end weights, to its hyperedge, where the rows are summed; the sums pass a leaky
  rectifier with one learnt slope (the first result), are projected by a third linear layer, travel back along the same
  pairs to be summed at the nodes, and pass the rectifier again (the second result).

  The tiled program computes the linear layers and the rectifiers block of rows by block of rows — twenty blocks of
  5000 node rows, five of 5000 hyperedge rows, ten of 10000 node rows — and leaves the message passing to the same host
  operations the plain program uses. At the exact instance a change of float format is the identity and a matrix
  product into a zero accumulator is the sum over the contracted axis, so each region leaves exactly the stage of the
  plain program applied to the whole arrays (Region0, Region1, Region2: a row of the result depends on the same row of
  the input only, and the blocks cover the rows); the host stretches in between are the plain program's own operations
  on those arrays (Boundaries); and the plain program's results are, term for term, the composition of the same stages
  (ReferenceValue). No arithmetic law is used beyond reading both sides as the same sums, so finiteness of the inputs
  is never needed.

  The three frames are the tiled program's run at the word level and at the exact instance, and the plain program's
  run with the results dropped; the idealization rewrote nothing, so there is nothing to preserve.
-/
import proofs.«172786_j57234734187132_1_alg».proof.Defs
import proofs.«172786_j57234734187132_1_alg».proof.Proof.Gen.Kernel
import proofs.«172786_j57234734187132_1_alg».proof.Proof.Gen.Kernel.Frame
import proofs.«172786_j57234734187132_1_alg».proof.Proof.Gen.KernelIdeal
import proofs.«172786_j57234734187132_1_alg».proof.Proof.Gen.KernelIdeal.Frame
import proofs.«172786_j57234734187132_1_alg».proof.Proof.Gen.ReferenceIdeal
import proofs.«172786_j57234734187132_1_alg».proof.Proof.Gen.ReferenceIdeal.Run
import proofs.«172786_j57234734187132_1_alg».proof.Proof.Gen.Pre_finite_inputs
import proofs.«172786_j57234734187132_1_alg».proof.Proof.KernelValue
import proofs.«172786_j57234734187132_1_alg».proof.Proof.ReferenceValue
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- On arguments that agree, the plain program's hyperedge features are the convolution's of the tiled program's arguments. -/
theorem hedges_agree (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (h14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) :
    Cert.ReferenceIdeal.Value.res_main_v41 (F := Ideal) m' c = Cert.Hyper.hedgeOut (m ((c.tc : Thread Cert.KernelIdeal.nD Cert.KernelIdeal.τ).loc Cert.KernelIdeal.main_arg0)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg2)) (m ((c.tc : Thread Cert.KernelIdeal.nD Cert.KernelIdeal.τ).loc Cert.KernelIdeal.main_arg5)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) := by
  rw [Cert.Hyper.Reference.hedges_eq, h0, h2, h5, h6, h7, h8, h9, h12, h13, h14]

/-- And so are its node features. -/
theorem nodes_agree (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (h14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) :
    Cert.ReferenceIdeal.Value.res_main_v78 (F := Ideal) m' c
      = Cert.Hyper.nodeOut (Cert.Hyper.hedgeOut (m ((c.tc : Thread Cert.KernelIdeal.nD Cert.KernelIdeal.τ).loc Cert.KernelIdeal.main_arg0)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg2)) (m ((c.tc : Thread Cert.KernelIdeal.nD Cert.KernelIdeal.τ).loc Cert.KernelIdeal.main_arg5)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg4)) (m ((c.tc : Thread Cert.KernelIdeal.nD Cert.KernelIdeal.τ).loc Cert.KernelIdeal.main_arg3)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) := by
  rw [Cert.Hyper.Reference.nodes_eq, hedges_agree m m' c h0 h2 h5 h6 h7 h8 h9 h12 h13 h14, h3, h4, h10, h11, h12, h13, h14]

/-- From memories agreeing on the arguments both programs end with the node features and the hyperedge features of
    the convolution of those arguments. -/
theorem algebraic : Cert.algebraic_KernelIdeal_ReferenceIdeal := by
  intro m ρ m' ρ' _ hagree
  refine ⟨fun c => Cert.Hyper.nodeOut (Cert.Hyper.hedgeOut (m ((c.tc : Thread Cert.KernelIdeal.nD Cert.KernelIdeal.τ).loc Cert.KernelIdeal.main_arg0)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg2)) (m ((c.tc : Thread Cert.KernelIdeal.nD Cert.KernelIdeal.τ).loc Cert.KernelIdeal.main_arg5)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg4)) (m ((c.tc : Thread Cert.KernelIdeal.nD Cert.KernelIdeal.τ).loc Cert.KernelIdeal.main_arg3)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)),
    fun c => Cert.Hyper.hedgeOut (m ((c.tc : Thread Cert.KernelIdeal.nD Cert.KernelIdeal.τ).loc Cert.KernelIdeal.main_arg0)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg2)) (m ((c.tc : Thread Cert.KernelIdeal.nD Cert.KernelIdeal.τ).loc Cert.KernelIdeal.main_arg5)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)), Cert.Hyper.Kernel.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5, h6, h7, h8, h9, h10, h11, h12, h13, h14⟩ := hagree c
    exact nodes_agree m m' c h0 h2 h3 h4 h5 h6 h7 h8 h9 h10 h11 h12 h13 h14
  · obtain ⟨h0, h1, h2, h3, h4, h5, h6, h7, h8, h9, h10, h11, h12, h13, h14⟩ := hagree c
    exact hedges_agree m m' c h0 h2 h5 h6 h7 h8 h9 h12 h13 h14

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
